-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x8 : Shape := ⟨2, ![524288, 8]⟩
abbrev S524288x6 : Shape := ⟨2, ![524288, 6]⟩
abbrev S524288x9 : Shape := ⟨2, ![524288, 9]⟩
abbrev S524288x29 : Shape := ⟨2, ![524288, 29]⟩
abbrev S_ : Shape := ⟨0, ![]⟩

class Facts : Prop where
  bcast_S_S524288x8 : S_.BroadcastsInDim S524288x8 (![] : Fin 0 → Fin S524288x8.rank)
  reducesTo_S524288x8_S_d0_1 : S524288x8.ReducesTo [0, 1] S_
  h_S_ : 0 < S_.numel
  bcast_S_S524288x6 : S_.BroadcastsInDim S524288x6 (![] : Fin 0 → Fin S524288x6.rank)
  reducesTo_S524288x6_S_d0_1 : S524288x6.ReducesTo [0, 1] S_
  bcast_S_S524288x9 : S_.BroadcastsInDim S524288x9 (![] : Fin 0 → Fin S524288x9.rank)
  reducesTo_S524288x9_S_d0_1 : S524288x9.ReducesTo [0, 1] S_
  bcast_S_S524288x29 : S_.BroadcastsInDim S524288x29 (![] : Fin 0 → Fin S524288x29.rank)
  reducesTo_S524288x29_S_d0_1 : S524288x29.ReducesTo [0, 1] S_

variable [Facts]

def fn_part1 {F : FTy → Type} [FloatOps F] (main_arg4 : FVec F S524288x29 .f32) (main_v13 : IVec S_ 1) (main_v16 : IVec S524288x9 1) : IVec S_ 1 :=
  let main_c_5 : IVec S_ 1 := constantI S_ 1 1#1
  let main_v17 : IVec S_ 1 := (fun x v => Host.reduce IntOp.andi x v reducesTo_S524288x9_S_d0_1 h_S_) main_v16 main_c_5
  let main_v18 : IVec S_ 1 := andi main_v13 main_v17
  let main_v19 : FVec F S524288x29 .f32 := Host.absf main_arg4
  let main_cst_6 : FVec F S_ .f32 := constant S_ .f32 0x7F800000#32
  let main_v20 : FVec F S524288x29 .f32 := broadcastInDim S524288x29 ![] bcast_S_S524288x29 main_cst_6
  let main_v21 : IVec S524288x29 1 := cmpf .olt main_v19 main_v20
  let main_c_7 : IVec S_ 1 := constantI S_ 1 1#1
  let main_v22 : IVec S_ 1 := (fun x v => Host.reduce IntOp.andi x v reducesTo_S524288x29_S_d0_1 h_S_) main_v21 main_c_7
  let main_v23 : IVec S_ 1 := andi main_v18 main_v22
  main_v23

def fn {F : FTy → Type} [FloatOps F] (main_arg0 : FVec F S524288x8 .f32) (main_arg1 : FVec F S524288x6 .f32) (main_arg2 : FVec F S524288x6 .f32) (main_arg3 : FVec F S524288x9 .f32) (main_arg4 : FVec F S524288x29 .f32) : IVec S_ 1 :=
  let main_v0 : FVec F S524288x8 .f32 := Host.absf main_arg0
  let main_cst : FVec F S_ .f32 := constant S_ .f32 0x7F800000#32
  let main_v1 : FVec F S524288x8 .f32 := broadcastInDim S524288x8 ![] bcast_S_S524288x8 main_cst
  let main_v2 : IVec S524288x8 1 := cmpf .olt main_v0 main_v1
  let main_c : IVec S_ 1 := constantI S_ 1 1#1
  let main_v3 : IVec S_ 1 := (fun x v => Host.reduce IntOp.andi x v reducesTo_S524288x8_S_d0_1 h_S_) main_v2 main_c
  let main_v4 : FVec F S524288x6 .f32 := Host.absf main_arg1
  let main_cst_0 : FVec F S_ .f32 := constant S_ .f32 0x7F800000#32
  let main_v5 : FVec F S524288x6 .f32 := broadcastInDim S524288x6 ![] bcast_S_S524288x6 main_cst_0
  let main_v6 : IVec S524288x6 1 := cmpf .olt main_v4 main_v5
  let main_c_1 : IVec S_ 1 := constantI S_ 1 1#1
  let main_v7 : IVec S_ 1 := (fun x v => Host.reduce IntOp.andi x v reducesTo_S524288x6_S_d0_1 h_S_) main_v6 main_c_1
  let main_v8 : IVec S_ 1 := andi main_v3 main_v7
  let main_v9 : FVec F S524288x6 .f32 := Host.absf main_arg2
  let main_cst_2 : FVec F S_ .f32 := constant S_ .f32 0x7F800000#32
  let main_v10 : FVec F S524288x6 .f32 := broadcastInDim S524288x6 ![] bcast_S_S524288x6 main_cst_2
  let main_v11 : IVec S524288x6 1 := cmpf .olt main_v9 main_v10
  let main_c_3 : IVec S_ 1 := constantI S_ 1 1#1
  let main_v12 : IVec S_ 1 := (fun x v => Host.reduce IntOp.andi x v reducesTo_S524288x6_S_d0_1 h_S_) main_v11 main_c_3
  let main_v13 : IVec S_ 1 := andi main_v8 main_v12
  let main_v14 : FVec F S524288x9 .f32 := Host.absf main_arg3
  let main_cst_4 : FVec F S_ .f32 := constant S_ .f32 0x7F800000#32
  let main_v15 : FVec F S524288x9 .f32 := broadcastInDim S524288x9 ![] bcast_S_S524288x9 main_cst_4
  let main_v16 : IVec S524288x9 1 := cmpf .olt main_v14 main_v15
  fn_part1 (F := F) main_arg4 main_v13 main_v16
-- ==== Kernel.lean ====
abbrev S524288x8 : Shape := ⟨2, ![524288, 8]⟩
abbrev S524288x6 : Shape := ⟨2, ![524288, 6]⟩
abbrev S524288x9 : Shape := ⟨2, ![524288, 9]⟩
abbrev S524288x29 : Shape := ⟨2, ![524288, 29]⟩
abbrev S2x1x128 : Shape := ⟨3, ![2, 1, 128]⟩
abbrev S4096x8 : Shape := ⟨2, ![4096, 8]⟩
abbrev S4096x6 : Shape := ⟨2, ![4096, 6]⟩
abbrev S4096x9 : Shape := ⟨2, ![4096, 9]⟩
abbrev S4096x29 : Shape := ⟨2, ![4096, 29]⟩
abbrev S1x1x128 : Shape := ⟨3, ![1, 1, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S524288x8, .f32⟩
  | .hbm, ⟨1, _⟩ => ⟨S524288x6, .f32⟩
  | .hbm, ⟨2, _⟩ => ⟨S524288x6, .f32⟩
  | .hbm, ⟨3, _⟩ => ⟨S524288x9, .f32⟩
  | .hbm, ⟨4, _⟩ => ⟨S524288x29, .f32⟩
  | .hbm, ⟨5, _⟩ => ⟨S2x1x128, .f32⟩
  | .hbm, ⟨6, _⟩ => ⟨S1x1x1, .f32⟩
  | .hbm, ⟨7, _⟩ => ⟨S_, .f32⟩
  | .hbm, ⟨8, _⟩ => ⟨S1x1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S4096x8, .f32⟩
  | .local _ .vmem, ⟨1, _⟩ => ⟨S4096x8, .f32⟩
  | .local _ .vmem, ⟨2, _⟩ => ⟨S4096x6, .f32⟩
  | .local _ .vmem, ⟨3, _⟩ => ⟨S4096x6, .f32⟩
  | .local _ .vmem, ⟨4, _⟩ => ⟨S4096x6, .f32⟩
  | .local _ .vmem, ⟨5, _⟩ => ⟨S4096x6, .f32⟩
  | .local _ .vmem, ⟨6, _⟩ => ⟨S4096x9, .f32⟩
  | .local _ .vmem, ⟨7, _⟩ => ⟨S4096x9, .f32⟩
  | .local _ .vmem, ⟨8, _⟩ => ⟨S4096x29, .f32⟩
  | .local _ .vmem, ⟨9, _⟩ => ⟨S4096x29, .f32⟩
  | .local _ .vmem, ⟨10, _⟩ => ⟨S1x1x128, .f32⟩
  | .local _ .vmem, ⟨11, _⟩ => ⟨S1x1x128, .f32⟩
  | _, _ => ⟨S524288x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x29 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1x128_S1x1x128_0_0_0 : ∀ a, (![0, 0, 0] : Fin 3 → Nat) a + S1x1x128.size a ≤ S1x1x128.size a
  h_S1x1x128 : 0 < S1x1x128.numel
  inb_S4096x29_S4096x29_0_0 : ∀ a, (![0, 0] : Fin 2 → Nat) a + S4096x29.size a ≤ S4096x29.size a
  h_S4096x29 : 0 < S4096x29.numel
  inb_S4096x8_S4096x8_0_0 : ∀ a, (![0, 0] : Fin 2 → Nat) a + S4096x8.size a ≤ S4096x8.size a
  h_S4096x8 : 0 < S4096x8.numel
  slices_S4096x29_o0_0_S4096x8 : S4096x29.Slices ![0, 0] S4096x8
  reduces_S4096x8_S4096 : S4096x8.Reduces [1] S4096
  shapeCasts_S4096_S4096x1 : S4096.ShapeCasts S4096x1
  broadcasts_S4096x1_S4096x8 : S4096x1.Broadcasts S4096x8
  reduces_S4096x1_S1 : S4096x1.Reduces [0] S1
  shapeCasts_S1_S1x1 : S1.ShapeCasts S1x1
  inb_S4096x6_S4096x6_0_0 : ∀ a, (![0, 0] : Fin 2 → Nat) a + S4096x6.size a ≤ S4096x6.size a
  h_S4096x6 : 0 < S4096x6.numel
  slices_S4096x29_o0_8_S4096x6 : S4096x29.Slices ![0, 8] S4096x6
  reduces_S4096x6_S4096 : S4096x6.Reduces [1] S4096
  broadcasts_S4096x1_S4096x6 : S4096x1.Broadcasts S4096x6
  slices_S4096x29_o0_14_S4096x6 : S4096x29.Slices ![0, 14] S4096x6
  inb_S4096x9_S4096x9_0_0 : ∀ a, (![0, 0] : Fin 2 → Nat) a + S4096x9.size a ≤ S4096x9.size a
  h_S4096x9 : 0 < S4096x9.numel
  slices_S4096x29_o0_20_S4096x9 : S4096x29.Slices ![0, 20] S4096x9
  reduces_S4096x9_S4096 : S4096x9.Reduces [1] S4096
  broadcasts_S4096x1_S4096x9 : S4096x1.Broadcasts S4096x9
  shapeCasts_S1x1x128_S1x1x128 : S1x1x128.ShapeCasts S1x1x128
  shapeCasts_S1x1_S1x1x1 : S1x1.ShapeCasts S1x1x1
  broadcasts_S1x1x1_S1x1x128 : S1x1x1.Broadcasts S1x1x128
  slices_S2x1x128_S1x1x1_0_0_0 : S2x1x128.Slices ![0, 0, 0] S1x1x1
  shapeCasts_S1x1x1_S_ : S1x1x1.ShapeCasts S_
  slices_S2x1x128_S1x1x1_1_0_0 : S2x1x128.Slices ![1, 0, 0] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S524288x8.size a
  hwx0_0 : ∀ i : grid0.Coords, EltTy.bits .f32 = 32 ∨ (Rect.block (s := S524288x8) S4096x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x6.size a ≤ S524288x6.size a
  hwx0_1 : ∀ i : grid0.Coords, EltTy.bits .f32 = 32 ∨ (Rect.block (s := S524288x6) S4096x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x6.size a ≤ S524288x6.size a
  hwx0_2 : ∀ i : grid0.Coords, EltTy.bits .f32 = 32 ∨ (Rect.block (s := S524288x6) S4096x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x9.size a ≤ S524288x9.size a
  hwx0_3 : ∀ i : grid0.Coords, EltTy.bits .f32 = 32 ∨ (Rect.block (s := S524288x9) S4096x9.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x29.size a ≤ S524288x29.size a
  hwx0_4 : ∀ i : grid0.Coords, EltTy.bits .f32 = 32 ∨ (Rect.block (s := S524288x29) S4096x29.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

abbrev win0_0 : Pipeline.Window sig grid0 :=
  Pipeline.Window.ofSpec (Memref.whole main_arg0) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x9.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x29.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S524288x8 : Shape := ⟨2, ![524288, 8]⟩
abbrev S524288x6 : Shape := ⟨2, ![524288, 6]⟩
abbrev S524288x9 : Shape := ⟨2, ![524288, 9]⟩
abbrev S524288x29 : Shape := ⟨2, ![524288, 29]⟩
abbrev S_ : Shape := ⟨0, ![]⟩
abbrev S524288 : Shape := ⟨1, ![524288]⟩
abbrev S524288x1 : Shape := ⟨2, ![524288, 1]⟩

abbrev nBuf : Space → Nat
  | .hbm => 102
  | .vmem => 0
  | .smem => 0
  | _ => 0

abbrev bufTy : (tb : Table) → Fin (tcTables nBuf tb) → BufTy
  | .hbm, ⟨0, _⟩ => ⟨S524288x8, .f32⟩
  | .hbm, ⟨1, _⟩ => ⟨S524288x6, .f32⟩
  | .hbm, ⟨2, _⟩ => ⟨S524288x6, .f32⟩
  | .hbm, ⟨3, _⟩ => ⟨S524288x9, .f32⟩
  | .hbm, ⟨4, _⟩ => ⟨S524288x29, .f32⟩
  | .hbm, ⟨5, _⟩ => ⟨S524288x8, .f32⟩
  | .hbm, ⟨6, _⟩ => ⟨S_, .f32⟩
  | .hbm, ⟨7, _⟩ => ⟨S524288, .f32⟩
  | .hbm, ⟨8, _⟩ => ⟨S_, .f32⟩
  | .hbm, ⟨9, _⟩ => ⟨S524288, .f32⟩
  | .hbm, ⟨10, _⟩ => ⟨S524288, .f32⟩
  | .hbm, ⟨11, _⟩ => ⟨S524288x1, .f32⟩
  | .hbm, ⟨12, _⟩ => ⟨S524288x8, .f32⟩
  | .hbm, ⟨13, _⟩ => ⟨S524288x8, .f32⟩
  | .hbm, ⟨14, _⟩ => ⟨S524288x8, .f32⟩
  | .hbm, ⟨15, _⟩ => ⟨S_, .f32⟩
  | .hbm, ⟨16, _⟩ => ⟨S524288, .f32⟩
  | .hbm, ⟨17, _⟩ => ⟨S524288x1, .f32⟩
  | .hbm, ⟨18, _⟩ => ⟨S524288x8, .f32⟩
  | .hbm, ⟨19, _⟩ => ⟨S524288x8, .f32⟩
  | .hbm, ⟨20, _⟩ => ⟨S_, .f32⟩
  | .hbm, ⟨21, _⟩ => ⟨S524288x8, .f32⟩
  | .hbm, ⟨22, _⟩ => ⟨S524288x8, .f32⟩
  | .hbm, ⟨23, _⟩ => ⟨S524288x8, .f32⟩
  | .hbm, ⟨24, _⟩ => ⟨S524288x8, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S524288x6, .f32⟩
  | .hbm, ⟨29, _⟩ => ⟨S_, .f32⟩
  | .hbm, ⟨30, _⟩ => ⟨S524288, .f32⟩
  | .hbm, ⟨31, _⟩ => ⟨S_, .f32⟩
  | .hbm, ⟨32, _⟩ => ⟨S524288, .f32⟩
  | .hbm, ⟨33, _⟩ => ⟨S524288, .f32⟩
  | .hbm, ⟨34, _⟩ => ⟨S524288x1, .f32⟩
  | .hbm, ⟨35, _⟩ => ⟨S524288x6, .f32⟩
  | .hbm, ⟨36, _⟩ => ⟨S524288x6, .f32⟩
  | .hbm, ⟨37, _⟩ => ⟨S524288x6, .f32⟩
  | .hbm, ⟨38, _⟩ => ⟨S_, .f32⟩
  | .hbm, ⟨39, _⟩ => ⟨S524288, .f32⟩
  | .hbm, ⟨40, _⟩ => ⟨S524288x1, .f32⟩
  | .hbm, ⟨41, _⟩ => ⟨S524288x6, .f32⟩
  | .hbm, ⟨42, _⟩ => ⟨S524288x6, .f32⟩
  | .hbm, ⟨43, _⟩ => ⟨S_, .f32⟩
  | .hbm, ⟨44, _⟩ => ⟨S524288x6, .f32⟩
  | .hbm, ⟨45, _⟩ => ⟨S524288x6, .f32⟩
  | .hbm, ⟨46, _⟩ => ⟨S524288x6, .f32⟩
  | .hbm, ⟨47, _⟩ => ⟨S524288x6, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S524288x6, .f32⟩
  | .hbm, ⟨52, _⟩ => ⟨S_, .f32⟩
  | .hbm, ⟨53, _⟩ => ⟨S524288, .f32⟩
  | .hbm, ⟨54, _⟩ => ⟨S_, .f32⟩
  | .hbm, ⟨55, _⟩ => ⟨S524288, .f32⟩
  | .hbm, ⟨56, _⟩ => ⟨S524288, .f32⟩
  | .hbm, ⟨57, _⟩ => ⟨S524288x1, .f32⟩
  | .hbm, ⟨58, _⟩ => ⟨S524288x6, .f32⟩
  | .hbm, ⟨59, _⟩ => ⟨S524288x6, .f32⟩
  | .hbm, ⟨60, _⟩ => ⟨S524288x6, .f32⟩
  | .hbm, ⟨61, _⟩ => ⟨S_, .f32⟩
  | .hbm, ⟨62, _⟩ => ⟨S524288, .f32⟩
  | .hbm, ⟨63, _⟩ => ⟨S524288x1, .f32⟩
  | .hbm, ⟨64, _⟩ => ⟨S524288x6, .f32⟩
  | .hbm, ⟨65, _⟩ => ⟨S524288x6, .f32⟩
  | .hbm, ⟨66, _⟩ => ⟨S_, .f32⟩
  | .hbm, ⟨67, _⟩ => ⟨S524288x6, .f32⟩
  | .hbm, ⟨68, _⟩ => ⟨S524288x6, .f32⟩
  | .hbm, ⟨69, _⟩ => ⟨S524288x6, .f32⟩
  | .hbm, ⟨70, _⟩ => ⟨S524288x6, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S524288x9, .f32⟩
  | .hbm, ⟨75, _⟩ => ⟨S_, .f32⟩
  | .hbm, ⟨76, _⟩ => ⟨S524288, .f32⟩
  | .hbm, ⟨77, _⟩ => ⟨S_, .f32⟩
  | .hbm, ⟨78, _⟩ => ⟨S524288, .f32⟩
  | .hbm, ⟨79, _⟩ => ⟨S524288, .f32⟩
  | .hbm, ⟨80, _⟩ => ⟨S524288x1, .f32⟩
  | .hbm, ⟨81, _⟩ => ⟨S524288x9, .f32⟩
  | .hbm, ⟨82, _⟩ => ⟨S524288x9, .f32⟩
  | .hbm, ⟨83, _⟩ => ⟨S524288x9, .f32⟩
  | .hbm, ⟨84, _⟩ => ⟨S_, .f32⟩
  | .hbm, ⟨85, _⟩ => ⟨S524288, .f32⟩
  | .hbm, ⟨86, _⟩ => ⟨S524288x1, .f32⟩
  | .hbm, ⟨87, _⟩ => ⟨S524288x9, .f32⟩
  | .hbm, ⟨88, _⟩ => ⟨S524288x9, .f32⟩
  | .hbm, ⟨89, _⟩ => ⟨S_, .f32⟩
  | .hbm, ⟨90, _⟩ => ⟨S524288x9, .f32⟩
  | .hbm, ⟨91, _⟩ => ⟨S524288x9, .f32⟩
  | .hbm, ⟨92, _⟩ => ⟨S524288x9, .f32⟩
  | .hbm, ⟨93, _⟩ => ⟨S524288x9, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S524288x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_17 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_18 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_19 : Ref sig .tc := ⟨.hbm, 100, rfl⟩
abbrev main_v75 : Ref sig .tc := ⟨.hbm, 101, rfl⟩

abbrev nD : Nat := 1
abbrev τ : Topo := Topo.v7x

variable {F : FTy → Type} [FloatOps F]

class Facts₀ : Prop where
  slices_S524288x29_S524288x8_0_0 : S524288x29.Slices ![0, 0] S524288x8
  reducesTo_S524288x8_S524288_d1 : S524288x8.ReducesTo [1] S524288
  h_S_ : 0 < S_.numel
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x8_0_1 : S524288x1.BroadcastsInDim S524288x8 (![0, 1] : Fin 2 → Fin S524288x8.rank)
  bcast_S_S524288x8 : S_.BroadcastsInDim S524288x8 (![] : Fin 0 → Fin S524288x8.rank)
  reducesTo_S524288x8_S_d0_1 : S524288x8.ReducesTo [0, 1] S_
  slices_S524288x29_S524288x6_0_8 : S524288x29.Slices ![0, 8] S524288x6
  reducesTo_S524288x6_S524288_d1 : S524288x6.ReducesTo [1] S524288
  bcast_S524288x1_S524288x6_0_1 : S524288x1.BroadcastsInDim S524288x6 (![0, 1] : Fin 2 → Fin S524288x6.rank)
  bcast_S_S524288x6 : S_.BroadcastsInDim S524288x6 (![] : Fin 0 → Fin S524288x6.rank)
  reducesTo_S524288x6_S_d0_1 : S524288x6.ReducesTo [0, 1] S_
  slices_S524288x29_S524288x6_0_14 : S524288x29.Slices ![0, 14] S524288x6
  slices_S524288x29_S524288x9_0_20 : S524288x29.Slices ![0, 20] S524288x9
  reducesTo_S524288x9_S524288_d1 : S524288x9.ReducesTo [1] S524288
  bcast_S524288x1_S524288x9_0_1 : S524288x1.BroadcastsInDim S524288x9 (![0, 1] : Fin 2 → Fin S524288x9.rank)
  bcast_S_S524288x9 : S_.BroadcastsInDim S524288x9 (![] : Fin 0 → Fin S524288x9.rank)
  reducesTo_S524288x9_S_d0_1 : S524288x9.ReducesTo [0, 1] S_

variable [Facts₀]

class Facts : Prop extends Facts₀ where

variable [Facts]
-- ==== Proof.KBody.lean ====
/-
  What one grid point leaves in the output block's staging buffer.

  The body loads the five input blocks, computes from them one number — the tile's total: four heads, each the sum over
  the block's rows of the negated row loss — spreads it over the 128 lanes and adds it to what the output block held.
  At the first point of each group of 64 the body first stores the zero block, so there the sum starts from zero; at
  every other point it continues from what the point before left.  Both cases leave the same function `step` of the
  input blocks and of the contents found (the zero block in the first case).
-/
import proofs.«132585_j30648886624644_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.SoftNll.K

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- What a point leaves: the contents found, plus the tile's total spread over the lanes — the body's one store, its
    operands the four heads' partial values computed from the five input blocks. -/
def step (x0 : Vec F S4096x8 .f32) (x1 x2 : Vec F S4096x6 .f32) (x3 : Vec F S4096x9 .f32) (x4 : Vec F S4096x29 .f32)
    (xo : Vec F S1x1x128 .f32) : Vec F S1x1x128 .f32 :=
  k0_pay1 (k0_pay3 x4 x0) (k0_pay7 (k0_pay4 x4) (k0_pay5 x1) (k0_pay6 x1)) (k0_pay8 x4 x2) (k0_pay9 x4) (k0_pay10 x3) xo

/-- The zero block the first point of a group stores before accumulating. -/
abbrev zeroBlk : Vec F S1x1x128 .f32 := k0_pay2 (F := F)

/-- A point that continues the running total: over contents `xo` the body leaves `step … xo` — its one covering
    store, every load a whole staging buffer. -/
theorem out_B (c : Dev nD) (i : grid0.Coords) (a2 : Memref sig .tc .vmem S4096x8 .f32) (h2 : a2.IsWhole)
    (a3 : Memref sig .tc .vmem S4096x6 .f32) (h3 : a3.IsWhole) (a4 : Memref sig .tc .vmem S4096x6 .f32) (h4 : a4.IsWhole)
    (a5 : Memref sig .tc .vmem S4096x9 .f32) (h5 : a5.IsWhole) (a6 : Memref sig .tc .vmem S4096x29 .f32) (h6 : a6.IsWhole)
    (a7 : Memref sig .tc .vmem S1x1x128 .f32) (h7 : a7.IsWhole) (hc : ¬cond0_0 i)
    (x0 : Vec F S4096x8 .f32) (x1 x2 : Vec F S4096x6 .f32) (x3 : Vec F S4096x9 .f32) (x4 : Vec F S4096x29 .f32)
    (xo : Vec F S1x1x128 .f32) :
    out0_B_5 c i a2 h2 a3 h3 a4 h4 a5 h5 a6 h6 a7 h7 hc x0 x1 x2 x3 x4 xo = step x0 x1 x2 x3 x4 xo := by
  unfold out0_B_5
  rw [View.read_writes_eq_canon _ _ _ (cover0_B_5 c i a2 h2 a3 h3 a4 h4 a5 h5 a6 h6 a7 h7 hc x0 x1 x2 x3 x4 xo)]
  unfold kernelRun0_B
  dsimp only
  sl_unfold_words
  rw [View.canon_unit_zero hz3]
  simp only [View.readAt_eq_ld, h2.read_unread, h3.read_unread, h4.read_unread, h5.read_unread, h6.read_unread,
    h7.read_unread, View.ld_unit_zero (S := S4096x8) hz2, View.ld_unit_zero (S := S4096x6) hz2,
    View.ld_unit_zero (S := S4096x9) hz2, View.ld_unit_zero (S := S4096x29) hz2, View.ld_unit_zero (S := S1x1x128) hz3]
  rfl

/-- The first point of a group: the body stores the zero block, reads it back, and leaves `step … 0`. -/
theorem out_A (c : Dev nD) (i : grid0.Coords) (a2 : Memref sig .tc .vmem S4096x8 .f32) (h2 : a2.IsWhole)
    (a3 : Memref sig .tc .vmem S4096x6 .f32) (h3 : a3.IsWhole) (a4 : Memref sig .tc .vmem S4096x6 .f32) (h4 : a4.IsWhole)
    (a5 : Memref sig .tc .vmem S4096x9 .f32) (h5 : a5.IsWhole) (a6 : Memref sig .tc .vmem S4096x29 .f32) (h6 : a6.IsWhole)
    (a7 : Memref sig .tc .vmem S1x1x128 .f32) (h7 : a7.IsWhole) (hc : cond0_0 i)
    (x0 : Vec F S4096x8 .f32) (x1 x2 : Vec F S4096x6 .f32) (x3 : Vec F S4096x9 .f32) (x4 : Vec F S4096x29 .f32) :
    out0_A_5 c i a2 h2 a3 h3 a4 h4 a5 h5 a6 h6 a7 h7 hc x0 x1 x2 x3 x4 = step x0 x1 x2 x3 x4 (zeroBlk (F := F)) := by
  unfold out0_A_5
  rw [View.read_writes_eq_canon _ _ _ (cover0_A_5 c i a2 h2 a3 h3 a4 h4 a5 h5 a6 h6 a7 h7 hc x0 x1 x2 x3 x4)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, h6.read_unread,
    View.ld_unit_zero (S := S4096x8) hz2, View.ld_unit_zero (S := S4096x6) hz2,
    View.ld_unit_zero (S := S4096x9) hz2, View.ld_unit_zero (S := S4096x29) hz2, View.ld_unit_zero (S := S1x1x128) hz3]
  rfl

end Cert.SoftNll.K

end
-- ==== Proof.Spec.lean ====
/-
  The mathematics both programs compute, on the extended reals.

  A row of logits x (b entries) and a row of labels l give, entry by entry, the term
      log ( exp (x c − M) / Σ_k exp (x k − M)  +  ε ) · l c ,     M = max (−∞, max_k x k),
  the logarithm of the row's softmax (shifted by ε) weighted by the label; a row's loss is the sum of its terms.
  The four heads read their logits from four arrays and their labels from four column ranges of one label array.

  The two programs group the same row losses differently.  One negates the sum over ALL rows of a head, adds the four
  heads and divides by the number of rows.  The other cuts the rows into tiles of 4096; on each tile it sums, head by
  head, the NEGATED row losses, adds the four heads, and keeps a running total that restarts every 64 tiles; the two
  running totals (tiles 0..63 and 64..127) are added and divided by the number of rows.
-/
import Idealize.ShloMosaic.PureOps.Ideal
import Idealize.ShloMosaic.PureOps.Ideal.Laws
import Idealize.ShloMosaic.Lib.ValueIdx

noncomputable section

open scoped BigOperators

namespace Cert.SoftNll

open Idealize.ShloMosaic

/-- The word of −∞, the softmax shift's starting value. -/
def negInf : EReal := Ideal.ofBits .f32 0xFF800000#32
/-- The word of ε = 1e-10 (as a binary32 number), added inside the logarithm. -/
def eps : EReal := Ideal.ofBits .f32 0x2EDBE6FF#32
/-- The word of the number of rows, 524288. -/
def nRows : EReal := Ideal.ofBits .f32 0x49000000#32

/-- The shift of a row: the maximum of −∞ and the running maximum of the row from −∞. -/
def rowMax {b : ℕ} (x : Fin b → EReal) : EReal := max negInf ((Finset.univ : Finset (Fin b)).fold max negInf x)
/-- The shifted exponential of entry c. -/
def rowExp {b : ℕ} (x : Fin b → EReal) (c : Fin b) : EReal := Ideal.exp (x c - rowMax x)
/-- Entry c's term: log (softmax + ε) times the label. -/
def rowTerm {b : ℕ} (x l : Fin b → EReal) (c : Fin b) : EReal :=
  Ideal.log (Ideal.div (rowExp x c) (∑ k, rowExp x k) + eps) * l c
/-- A row's loss: the sum of its terms. -/
def rowLoss {b : ℕ} (x l : Fin b → EReal) : EReal := ∑ c, rowTerm x l c

/-- Row r of an n × b array as a function of the column; the zero row past the array's end. -/
def rowN {n b : ℕ} (x : (⟨2, ![n, b]⟩ : Shape).Idx → EReal) (r : ℕ) : Fin b → EReal :=
  fun c => if h : r < n then x (ValueIdx.ix2 ⟨r, h⟩ c) else 0
/-- Columns off … off + w − 1 of a row of B entries. -/
def seg {B : ℕ} (off w : ℕ) (h : off + w ≤ B) (row : Fin B → EReal) : Fin w → EReal :=
  fun c => row ⟨off + c.val, by have := c.isLt; omega⟩

/-- The loss of row r of one head: logits x (n × w), labels the columns off … of the label array L (n × B). -/
def headRow {n w B : ℕ} (x : (⟨2, ![n, w]⟩ : Shape).Idx → EReal) (L : (⟨2, ![n, B]⟩ : Shape).Idx → EReal)
    (off : ℕ) (h : off + w ≤ B) (r : ℕ) : EReal :=
  rowLoss (rowN x r) (seg off w h (rowN L r))

/-- One head summed over all n rows, then negated. -/
def headAll (q : ℕ → EReal) (n : ℕ) : EReal := -(0 + ∑ r ∈ Finset.range n, q r)
/-- The first grouping: the four negated whole sums added, divided by the number of rows. -/
def wholeValue (q1 q2 q3 q4 : ℕ → EReal) : EReal :=
  Ideal.div (((headAll q1 524288 + headAll q2 524288) + headAll q3 524288) + headAll q4 524288) nRows

/-- One head on tile t: the sum over the tile's 4096 rows of the negated row losses. -/
def headTile (q : ℕ → EReal) (t : ℕ) : EReal := ∑ r ∈ Finset.range 4096, (0 - q (4096 * t + r))
/-- Tile t: the four heads added. -/
def tile (q1 q2 q3 q4 : ℕ → EReal) (t : ℕ) : EReal :=
  ((headTile q1 t + headTile q2 t) + headTile q3 t) + headTile q4 t
/-- The running total after tile n: it restarts from zero at every tile whose number is a multiple of 64. -/
def acc (f : ℕ → EReal) : ℕ → EReal
  | 0 => 0 + f 0
  | n + 1 => if (n + 1) % 64 = 0 then 0 + f (n + 1) else acc f n + f (n + 1)
/-- The second grouping: the two running totals added, divided by the number of rows. -/
def tiledValue (q1 q2 q3 q4 : ℕ → EReal) : EReal :=
  Ideal.div (acc (tile q1 q2 q3 q4) 63 + acc (tile q1 q2 q3 q4) 127) nRows

end Cert.SoftNll

end
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.LibMaxCols.lean ====
/-
  A matrix's maximum along its rows' entries, read at a coordinate, at the exact (extended-real) reading of the floats.

  For an a × b matrix M the maximum over the columns (axis 1) at row r is the running maximum of M[r, ·] from the
  accumulator's value: the fold of max over the b entries of row r. This is the library's one-axis maximum law with the
  inserted index written by coordinates, stated for any extents a and b — the companion, for axis 1, of the axis-0 form.
  A softmax's row maximum is read this way.
-/
import Idealize.ShloMosaic.PureOps.Ideal.Laws
import Idealize.ShloMosaic.Lib.ValueIdx

noncomputable section

namespace Cert.LibMaxCols

open Idealize.ShloMosaic Idealize.ShloMosaic.ValueIdx

/-- Maximum over the columns of an a × b matrix, at row r: the running maximum of the row from the accumulator's
    value. -/
theorem max_cols_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (Finset.fold_congr fun c _ => congrArg src
      (funext fun ax => Fin.ext (by match ax with | ⟨0, _⟩ => rfl | ⟨1, _⟩ => rfl)))

end Cert.LibMaxCols

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.HeadBlock.lean ====
/-
  One head's chain of vector operations on a block of a rows and b columns, read at an index.

  From a block X of logits the chain forms the row maxima (from −∞), the shifted exponentials E = exp (X − max), the row
  sums S of E spread back over the columns, and, with a block L of labels, for every row the sum over the columns of
  log (E / S + ε) · L, negated (0 − ·), and finally the sum of these over the rows.  Read entry by entry on the
  extended reals this is: the sum over the block's rows of the negated row loss of (row of X, row of L).
-/
import proofs.«132585_j30648886624644_2_alg».proof.Proof.Spec
import proofs.«132585_j30648886624644_2_alg».proof.Proof.LibAxisReduce
import proofs.«132585_j30648886624644_2_alg».proof.Proof.LibMaxCols
import proofs.«132585_j30648886624644_2_alg».proof.Proof.LibColumn
import Idealize.ShloMosaic.Lib.ValueLayout
import Idealize.ShloMosaic.PureOps.Ideal.Laws

noncomputable section

open scoped BigOperators

namespace Cert.SoftNll

open Idealize.ShloMosaic Idealize.ShloMosaic.ValueIdx

variable {a b : ℕ}

section chain

variable {F : FTy → Type} [FloatOps F]

/-- The shifted exponentials of a block: exp (X − row maximum), the maximum taken from −∞. -/
def expBlk (X : FVec F ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) :
    FVec F ⟨2, ![a, b]⟩ .f32 :=
  exp (subf X (broadcastTo ⟨2, ![a, b]⟩ (shapeCast ⟨2, ![a, 1]⟩
    (maximumf (broadcast ⟨1, ![a]⟩ (Scalar.ofBits .f32 0xFF800000#32))
      (multiReduction .maximumf [1] ⟨1, ![a]⟩ X 0xFF800000#32 hr (.inl rfl) rfl)) hc) hb))

/-- The row sums of a block spread back over the columns. -/
def sumBlk (E : FVec F ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) :
    FVec F ⟨2, ![a, b]⟩ .f32 :=
  broadcastTo ⟨2, ![a, b]⟩ (shapeCast ⟨2, ![a, 1]⟩
    (multiReduction .add [1] ⟨1, ![a]⟩ E 0x00000000#32 hr (.inl rfl) rfl) hc) hb

/-- From exponentials E, spread row sums S and labels L: the sum over the rows of 0 − Σ_c log (E / S + ε) · L. -/
def nllBlk (E S L : FVec F ⟨2, ![a, b]⟩ .f32) (hr : (⟨2, ![a, b]⟩ : Shape).Reduces [1] ⟨1, ![a]⟩)
    (hc : (⟨1, ![a]⟩ : Shape).ShapeCasts ⟨2, ![a, 1]⟩) (hr0 : (⟨2, ![a, 1]⟩ : Shape).Reduces [0] ⟨1, ![1]⟩)
    (hc1 : (⟨1, ![1]⟩ : Shape).ShapeCasts ⟨2, ![1, 1]⟩) : FVec F ⟨2, ![1, 1]⟩ .f32 :=
  shapeCast ⟨2, ![1, 1]⟩ (multiReduction .add [0] ⟨1, ![1]⟩
    (subf (broadcast ⟨2, ![a, 1]⟩ (Scalar.ofBits .f32 0x00000000#32))
      (shapeCast ⟨2, ![a, 1]⟩ (multiReduction .add [1] ⟨1, ![a]⟩
        (mulf (log (addf (divf E S) (broadcast ⟨2, ![a, b]⟩ (Scalar.ofBits .f32 0x2EDBE6FF#32)))) L)
        0x00000000#32 hr (.inl rfl) rfl) hc))
    0x00000000#32 hr0 (.inl rfl) rfl) hc1

end chain

/-- A length-a vector made a column and spread over b columns reads, at (r, c), the vector at r. -/
theorem colBc_apply {α : Type} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (r : Fin a) (c : Fin b) :
    broadcastTo ⟨2, ![a, b]⟩ (shapeCast ⟨2, ![a, 1]⟩ v hc) hb (ix2 r c) = v (ix1 r) :=
  (LibColumn.broadcastTo_a1_ab_apply _ hb r c).trans (LibColumn.shapeCast_a_a1_apply v hc r 0)

/-- Entry (r, c) of the shifted exponentials is the row's shifted exponential at c. -/
theorem expBlk_apply (X : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (r : Fin a) (c : Fin b) :
    expBlk X hr hc hb (ix2 r c) = rowExp (fun k => X (ix2 r k)) c := by
  have h2 : multiReduction .maximumf [1] ⟨1, ![a]⟩ X 0xFF800000#32 hr (.inl rfl) rfl (ix1 r)
      = (Finset.univ : Finset (Fin b)).fold max negInf (fun k => X (ix2 r k)) :=
    LibMaxCols.max_cols_apply X 0xFF800000#32 hr (.inl rfl) rfl r
  unfold expBlk
  show Ideal.exp (X (ix2 r c) - broadcastTo ⟨2, ![a, b]⟩ (shapeCast ⟨2, ![a, 1]⟩ _ hc) hb (ix2 r c)) = rowExp _ c
  rw [colBc_apply]
  show Ideal.exp (X (ix2 r c) - max negInf (multiReduction .maximumf [1] ⟨1, ![a]⟩ X 0xFF800000#32 hr (.inl rfl) rfl (ix1 r)))
    = rowExp _ c
  rw [h2]
  rfl

/-- Entry (r, c) of the spread row sums is the sum of row r. -/
theorem sumBlk_apply (E : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (r : Fin a) (c : Fin b) :
    sumBlk E hr hc hb (ix2 r c) = ∑ k : Fin b, E (ix2 r k) := by
  unfold sumBlk
  rw [colBc_apply]
  exact LibAxisReduce.add_cols_apply E 0x00000000#32 hr (.inl rfl) rfl r

/-- The last stage at its one index: the sum over the rows of 0 − Σ_c log (E / S + ε) · L. -/
theorem nllBlk_apply (E S L : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hr0 : (⟨2, ![a, 1]⟩ : Shape).Reduces [0] ⟨1, ![1]⟩)
    (hc1 : (⟨1, ![1]⟩ : Shape).ShapeCasts ⟨2, ![1, 1]⟩) :
    nllBlk E S L hr hc hr0 hc1 (ix2 (0 : Fin 1) (0 : Fin 1))
      = ∑ r : Fin a, (0 - ∑ c : Fin b, Ideal.log (Ideal.div (E (ix2 r c)) (S (ix2 r c)) + eps) * L (ix2 r c)) := by
  unfold nllBlk
  rw [LibColumn.shapeCast_a_a1_apply _ hc1 (0 : Fin 1) (0 : Fin 1)]
  refine (LibAxisReduce.add_rows_apply _ 0x00000000#32 hr0 (.inl rfl) rfl (0 : Fin 1)).trans ?_
  refine Finset.sum_congr rfl fun r _ => ?_
  show Ideal.ofBits .f32 0x00000000#32 - shapeCast ⟨2, ![a, 1]⟩ _ hc (ix2 r (0 : Fin 1)) = _
  rw [LibColumn.shapeCast_a_a1_apply _ hc r (0 : Fin 1), Ideal.ofBits_zero_f32]
  refine congrArg (fun z => (0 : EReal) - z) ?_
  refine (LibAxisReduce.add_cols_apply _ 0x00000000#32 hr (.inl rfl) rfl r).trans ?_
  rfl

/-- The whole head on a block: the sum over its rows of the negated row loss. -/
theorem headBlk_apply (X L : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (hr0 : (⟨2, ![a, 1]⟩ : Shape).Reduces [0] ⟨1, ![1]⟩) (hc1 : (⟨1, ![1]⟩ : Shape).ShapeCasts ⟨2, ![1, 1]⟩) :
    nllBlk (expBlk X hr hc hb) (sumBlk (expBlk X hr hc hb) hr hc hb) L hr hc hr0 hc1 (ix2 (0 : Fin 1) (0 : Fin 1))
      = ∑ r : Fin a, (0 - rowLoss (fun k => X (ix2 r k)) (fun k => L (ix2 r k))) := by
  rw [nllBlk_apply]
  refine Finset.sum_congr rfl fun r _ => ?_
  refine congrArg (fun z => (0 : EReal) - z) ?_
  unfold rowLoss rowTerm
  refine Finset.sum_congr rfl fun c _ => ?_
  rw [sumBlk_apply, expBlk_apply]
  simp only [expBlk_apply]

end Cert.SoftNll

end
-- ==== Proof.KStep.lean ====
/-
  What a grid point adds to the output block, read on the extended reals.

  Each lane of the block a point leaves is the lane's previous value plus the tile's total: the four heads added in
  order, each head the sum over the block's 4096 rows of the negated row loss — the row of the head's logits block
  against the head's columns of the same row of the label block (columns 0–7, 8–13, 14–19, 20–28).
-/
import proofs.«132585_j30648886624644_2_alg».proof.Proof.KBody
import proofs.«132585_j30648886624644_2_alg».proof.Proof.HeadBlock
import Idealize.ShloMosaic.Lib.ValueLayout

noncomputable section

open scoped BigOperators

open Idealize.ShloMosaic Idealize.ShloMosaic.ValueIdx

namespace Cert.SoftNll.K

open Cert.KernelIdeal Cert.KernelIdeal.Gen Cert.SoftNll

/-- One head on a block of 4096 rows: the sum over the rows of the negated row loss, the labels the columns
    off … off + w − 1 of the label block's row. -/
def blkHead {w : ℕ} (X : (⟨2, ![4096, w]⟩ : Shape).Idx → EReal) (Lb : (⟨2, ![4096, 29]⟩ : Shape).Idx → EReal)
    (off : ℕ) (h : off + w ≤ 29) : EReal :=
  ∑ r : Fin 4096, (0 - rowLoss (fun k => X (ix2 r k)) (seg off w h (fun k => Lb (ix2 r k))))

/-- The tile's total from the five blocks: the four heads added in order. -/
def blkTile (x0 : (⟨2, ![4096, 8]⟩ : Shape).Idx → EReal) (x1 x2 : (⟨2, ![4096, 6]⟩ : Shape).Idx → EReal)
    (x3 : (⟨2, ![4096, 9]⟩ : Shape).Idx → EReal) (x4 : (⟨2, ![4096, 29]⟩ : Shape).Idx → EReal) : EReal :=
  ((blkHead x0 x4 0 (by norm_num) + blkHead x1 x4 8 (by norm_num)) + blkHead x2 x4 14 (by norm_num))
    + blkHead x3 x4 20 (by norm_num)

/-- A head's chain with the labels cut from the label block: the generic block law, the cut read column by column. -/
theorem head_of_slice {w : ℕ} (off : ℕ) (h : off + w ≤ 29) (X : FVec Ideal ⟨2, ![4096, w]⟩ .f32)
    (x4 : FVec Ideal ⟨2, ![4096, 29]⟩ .f32)
    (hs : (⟨2, ![4096, 29]⟩ : Shape).Slices ![0, off] ⟨2, ![4096, w]⟩)
    (hr : (⟨2, ![4096, w]⟩ : Shape).Reduces [1] ⟨1, ![4096]⟩)
    (hc : (⟨1, ![4096]⟩ : Shape).ShapeCasts ⟨2, ![4096, 1]⟩) (hb : (⟨2, ![4096, 1]⟩ : Shape).Broadcasts ⟨2, ![4096, w]⟩)
    (hr0 : (⟨2, ![4096, 1]⟩ : Shape).Reduces [0] ⟨1, ![1]⟩) (hc1 : (⟨1, ![1]⟩ : Shape).ShapeCasts ⟨2, ![1, 1]⟩) :
    nllBlk (expBlk X hr hc hb) (sumBlk (expBlk X hr hc hb) hr hc hb)
        (extractStridedSlice ⟨2, ![4096, w]⟩ ![0, off] x4 hs) hr hc hr0 hc1 (ix2 (0 : Fin 1) (0 : Fin 1))
      = blkHead X x4 off h := by
  rw [headBlk_apply]
  unfold blkHead
  refine Finset.sum_congr rfl fun r _ => ?_
  refine congrArg (fun z => (0 : EReal) - z) (congrArg (rowLoss _) ?_)
  funext k
  exact ValueIdx.slice2_axis1_apply off x4 hs r k ⟨off + k.val, by have := k.isLt; omega⟩ rfl

/-- Head 1 (8 columns, labels 0–7) as the body computes it. -/
theorem head1_apply (x0 : Vec Ideal S4096x8 .f32) (x4 : Vec Ideal S4096x29 .f32) :
    k0_pay3 (F := Ideal) x4 x0 (ix2 (0 : Fin 1) (0 : Fin 1)) = blkHead x0 x4 0 (by norm_num) :=
  head_of_slice 0 (by norm_num) x0 x4 slices_S4096x29_o0_0_S4096x8 reduces_S4096x8_S4096 shapeCasts_S4096_S4096x1
    broadcasts_S4096x1_S4096x8 reduces_S4096x1_S1 shapeCasts_S1_S1x1

/-- Head 2 (6 columns, labels 8–13). -/
theorem head2_apply (x1 : Vec Ideal S4096x6 .f32) (x4 : Vec Ideal S4096x29 .f32) :
    k0_pay7 (F := Ideal) (k0_pay4 x4) (k0_pay5 x1) (k0_pay6 x1) (ix2 (0 : Fin 1) (0 : Fin 1))
      = blkHead x1 x4 8 (by norm_num) :=
  head_of_slice 8 (by norm_num) x1 x4 slices_S4096x29_o0_8_S4096x6 reduces_S4096x6_S4096 shapeCasts_S4096_S4096x1
    broadcasts_S4096x1_S4096x6 reduces_S4096x1_S1 shapeCasts_S1_S1x1

/-- Head 3 (6 columns, labels 14–19). -/
theorem head3_apply (x2 : Vec Ideal S4096x6 .f32) (x4 : Vec Ideal S4096x29 .f32) :
    k0_pay8 (F := Ideal) x4 x2 (ix2 (0 : Fin 1) (0 : Fin 1)) = blkHead x2 x4 14 (by norm_num) :=
  head_of_slice 14 (by norm_num) x2 x4 slices_S4096x29_o0_14_S4096x6 reduces_S4096x6_S4096 shapeCasts_S4096_S4096x1
    broadcasts_S4096x1_S4096x6 reduces_S4096x1_S1 shapeCasts_S1_S1x1

/-- Head 4 (9 columns, labels 20–28): its last stage sits inside the body's final store. -/
theorem head4_apply (x3 : Vec Ideal S4096x9 .f32) (x4 : Vec Ideal S4096x29 .f32) :
    nllBlk (k0_pay10 (F := Ideal) x3) (sumBlk (k0_pay10 (F := Ideal) x3) reduces_S4096x9_S4096 shapeCasts_S4096_S4096x1
        broadcasts_S4096x1_S4096x9) (k0_pay9 (F := Ideal) x4) reduces_S4096x9_S4096 shapeCasts_S4096_S4096x1 reduces_S4096x1_S1
        shapeCasts_S1_S1x1 (ix2 (0 : Fin 1) (0 : Fin 1))
      = blkHead x3 x4 20 (by norm_num) :=
  head_of_slice 20 (by norm_num) x3 x4 slices_S4096x29_o0_20_S4096x9 reduces_S4096x9_S4096 shapeCasts_S4096_S4096x1
    broadcasts_S4096x1_S4096x9 reduces_S4096x1_S1 shapeCasts_S1_S1x1

/-- A one-entry matrix made a one-entry cube and spread over the 128 lanes reads, at any lane, its entry. -/
theorem lanes_apply (T : FVec Ideal S1x1 .f32) (l : Fin 128) :
    broadcastTo S1x1x128 (shapeCast S1x1x1 T shapeCasts_S1x1_S1x1x1) broadcasts_S1x1x1_S1x1x128
        (ix3 (0 : Fin 1) (0 : Fin 1) l) = T (ix2 (0 : Fin 1) (0 : Fin 1)) := by
  refine (broadcastTo_apply _ broadcasts_S1x1x1_S1x1x128 (ix3 (0 : Fin 1) (0 : Fin 1) l)
    (ix3 (0 : Fin 1) (0 : Fin 1) (0 : Fin 1)) fun ax => ?_).trans
    (ValueIdx.shapeCast_ab_1ab_apply T shapeCasts_S1x1_S1x1x1 (0 : Fin 1) (0 : Fin 1) (0 : Fin 1))
  match ax with
  | ⟨0, _⟩ => rfl
  | ⟨1, _⟩ => rfl
  | ⟨2, _⟩ => rfl

/-- THE STEP: every lane gains the tile's total. -/
theorem step_apply (x0 : Vec Ideal S4096x8 .f32) (x1 x2 : Vec Ideal S4096x6 .f32) (x3 : Vec Ideal S4096x9 .f32)
    (x4 : Vec Ideal S4096x29 .f32) (xo : Vec Ideal S1x1x128 .f32) (l : Fin 128) :
    step (F := Ideal) x0 x1 x2 x3 x4 xo (ix3 (0 : Fin 1) (0 : Fin 1) l)
      = xo (ix3 (0 : Fin 1) (0 : Fin 1) l) + blkTile x0 x1 x2 x3 x4 := by
  unfold step k0_pay1
  show shapeCast S1x1x128 xo shapeCasts_S1x1x128_S1x1x128 (ix3 (0 : Fin 1) (0 : Fin 1) l)
      + broadcastTo S1x1x128 (shapeCast S1x1x1 _ shapeCasts_S1x1_S1x1x1) broadcasts_S1x1x1_S1x1x128
          (ix3 (0 : Fin 1) (0 : Fin 1) l) = _
  rw [shapeCast_self, lanes_apply]
  refine congrArg (fun z => xo (ix3 (0 : Fin 1) (0 : Fin 1) l) + z) ?_
  show ((k0_pay3 (F := Ideal) x4 x0 (ix2 (0 : Fin 1) (0 : Fin 1))
        + k0_pay7 (F := Ideal) (k0_pay4 x4) (k0_pay5 x1) (k0_pay6 x1) (ix2 (0 : Fin 1) (0 : Fin 1)))
        + k0_pay8 (F := Ideal) x4 x2 (ix2 (0 : Fin 1) (0 : Fin 1)))
      + nllBlk (k0_pay10 (F := Ideal) x3) (sumBlk (k0_pay10 (F := Ideal) x3) reduces_S4096x9_S4096 shapeCasts_S4096_S4096x1
          broadcasts_S4096x1_S4096x9) (k0_pay9 (F := Ideal) x4) reduces_S4096x9_S4096 shapeCasts_S4096_S4096x1 reduces_S4096x1_S1
          shapeCasts_S1_S1x1 (ix2 (0 : Fin 1) (0 : Fin 1)) = _
  rw [head1_apply, head2_apply, head3_apply, head4_apply]
  rfl

/-- The zero block is zero at every lane. -/
theorem zeroBlk_apply (j : S1x1x128.Idx) : zeroBlk (F := Ideal) j = 0 := by
  show Ideal.ofBits .f32 0x00000000#32 = 0
  exact Ideal.ofBits_zero_f32

end Cert.SoftNll.K

end
-- ==== Proof.KAcc.lean ====
/-
  The running total, point by point.

  Point t of the grid (128 points) reads tile t: rows 4096·t … 4096·t + 4095 of every argument array.  So the tile's
  total computed from the blocks at point t is the specification's `tile` at t, over the row losses of the arrays.
  A point whose number is a multiple of 64 starts the output block's lanes from zero, any other continues from what
  the point before left: by induction on the point every lane holds the specification's running total `acc`.
-/
import proofs.«132585_j30648886624644_2_alg».proof.Proof.KStep

noncomputable section

open scoped BigOperators

open Idealize.ShloMosaic Idealize.ShloMosaic.TcCoe Idealize.SL.Sem Idealize.ShloMosaic.ValueIdx

namespace Cert.SoftNll.K

open Cert.KernelIdeal Cert.KernelIdeal.Gen Cert.SoftNll

variable (m : (ℓ : Loc nD τ sig) → Buf (Elt Ideal) ℓ)

/-- The five argument arrays on core c, as plain arrays of extended reals. -/
abbrev arr0 (c : Dev nD) : (⟨2, ![524288, 8]⟩ : Shape).Idx → EReal := m ((c : Thread nD τ).loc main_arg0)
abbrev arr1 (c : Dev nD) : (⟨2, ![524288, 6]⟩ : Shape).Idx → EReal := m ((c : Thread nD τ).loc main_arg1)
abbrev arr2 (c : Dev nD) : (⟨2, ![524288, 6]⟩ : Shape).Idx → EReal := m ((c : Thread nD τ).loc main_arg2)
abbrev arr3 (c : Dev nD) : (⟨2, ![524288, 9]⟩ : Shape).Idx → EReal := m ((c : Thread nD τ).loc main_arg3)
abbrev arr4 (c : Dev nD) : (⟨2, ![524288, 29]⟩ : Shape).Idx → EReal := m ((c : Thread nD τ).loc main_arg4)

/-- The four heads' row losses, row by row. -/
def q1 (c : Dev nD) : ℕ → EReal := headRow (arr0 m c) (arr4 m c) 0 (by norm_num)
def q2 (c : Dev nD) : ℕ → EReal := headRow (arr1 m c) (arr4 m c) 8 (by norm_num)
def q3 (c : Dev nD) : ℕ → EReal := headRow (arr2 m c) (arr4 m c) 14 (by norm_num)
def q4 (c : Dev nD) : ℕ → EReal := headRow (arr3 m c) (arr4 m c) 20 (by norm_num)

/-- The printed index maps, decided over the grid: each input's block at point t is block (t, 0) of its array; the
    output's is block (t / 64, 0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 3) = t.val / 64 ∧ win0_5.index t (1 : Fin 3) = 0 ∧ win0_5.index t (2 : Fin 3) = 0 :=
  (by decide +kernel : ∀ t : Fin grid0.N, _)

/-- Row r of an input block at point t is row 4096·t + r of its array. -/
theorem row0 (c : Dev nD) (t : Fin cfg0.N) (r : Fin 4096) :
    (fun k : Fin 8 => (iblk m c 0 t : Vec Ideal S4096x8 .f32) (ix2 r k)) = rowN (arr0 m c) (4096 * t.val + r.val) := by
  have hN : t.val < 128 := lt_of_lt_of_eq t.isLt (show cfg0.N = 128 from N_0)
  have hr : 4096 * t.val + r.val < 524288 := by have := r.isLt; omega
  funext k
  unfold rowN
  rw [dif_pos hr]
  unfold iblk
  rw [View.read_apply]
  show V m c main_arg0 _ = m ((c : Thread nD τ).loc main_arg0) _
  rw [V_main_arg0]
  congr 1
  funext a
  apply Fin.ext
  obtain ⟨e00, e01, -⟩ := idx_facts t
  match a with
  | ⟨0, _⟩ => show win0_0.index t (0 : Fin 2) * 4096 + 1 * r.val = 4096 * t.val + r.val; rw [e00]; omega
  | ⟨1, _⟩ => show win0_0.index t (1 : Fin 2) * 8 + 1 * k.val = k.val; rw [e01]; omega

theorem row1 (c : Dev nD) (t : Fin cfg0.N) (r : Fin 4096) :
    (fun k : Fin 6 => (iblk m c 1 t : Vec Ideal S4096x6 .f32) (ix2 r k)) = rowN (arr1 m c) (4096 * t.val + r.val) := by
  have hN : t.val < 128 := lt_of_lt_of_eq t.isLt (show cfg0.N = 128 from N_0)
  have hr : 4096 * t.val + r.val < 524288 := by have := r.isLt; omega
  funext k
  unfold rowN
  rw [dif_pos hr]
  unfold iblk
  rw [View.read_apply]
  show V m c main_arg1 _ = m ((c : Thread nD τ).loc main_arg1) _
  rw [V_main_arg1]
  congr 1
  funext a
  apply Fin.ext
  obtain ⟨-, -, e10, e11, -⟩ := idx_facts t
  match a with
  | ⟨0, _⟩ => show win0_1.index t (0 : Fin 2) * 4096 + 1 * r.val = 4096 * t.val + r.val; rw [e10]; omega
  | ⟨1, _⟩ => show win0_1.index t (1 : Fin 2) * 6 + 1 * k.val = k.val; rw [e11]; omega

theorem row2 (c : Dev nD) (t : Fin cfg0.N) (r : Fin 4096) :
    (fun k : Fin 6 => (iblk m c 2 t : Vec Ideal S4096x6 .f32) (ix2 r k)) = rowN (arr2 m c) (4096 * t.val + r.val) := by
  have hN : t.val < 128 := lt_of_lt_of_eq t.isLt (show cfg0.N = 128 from N_0)
  have hr : 4096 * t.val + r.val < 524288 := by have := r.isLt; omega
  funext k
  unfold rowN
  rw [dif_pos hr]
  unfold iblk
  rw [View.read_apply]
  show V m c main_arg2 _ = m ((c : Thread nD τ).loc main_arg2) _
  rw [V_main_arg2]
  congr 1
  funext a
  apply Fin.ext
  obtain ⟨-, -, -, -, e20, e21, -⟩ := idx_facts t
  match a with
  | ⟨0, _⟩ => show win0_2.index t (0 : Fin 2) * 4096 + 1 * r.val = 4096 * t.val + r.val; rw [e20]; omega
  | ⟨1, _⟩ => show win0_2.index t (1 : Fin 2) * 6 + 1 * k.val = k.val; rw [e21]; omega

theorem row3 (c : Dev nD) (t : Fin cfg0.N) (r : Fin 4096) :
    (fun k : Fin 9 => (iblk m c 3 t : Vec Ideal S4096x9 .f32) (ix2 r k)) = rowN (arr3 m c) (4096 * t.val + r.val) := by
  have hN : t.val < 128 := lt_of_lt_of_eq t.isLt (show cfg0.N = 128 from N_0)
  have hr : 4096 * t.val + r.val < 524288 := by have := r.isLt; omega
  funext k
  unfold rowN
  rw [dif_pos hr]
  unfold iblk
  rw [View.read_apply]
  show V m c main_arg3 _ = m ((c : Thread nD τ).loc main_arg3) _
  rw [V_main_arg3]
  congr 1
  funext a
  apply Fin.ext
  obtain ⟨-, -, -, -, -, -, e30, e31, -⟩ := idx_facts t
  match a with
  | ⟨0, _⟩ => show win0_3.index t (0 : Fin 2) * 4096 + 1 * r.val = 4096 * t.val + r.val; rw [e30]; omega
  | ⟨1, _⟩ => show win0_3.index t (1 : Fin 2) * 9 + 1 * k.val = k.val; rw [e31]; omega

theorem row4 (c : Dev nD) (t : Fin cfg0.N) (r : Fin 4096) :
    (fun k : Fin 29 => (iblk m c 4 t : Vec Ideal S4096x29 .f32) (ix2 r k)) = rowN (arr4 m c) (4096 * t.val + r.val) := by
  have hN : t.val < 128 := lt_of_lt_of_eq t.isLt (show cfg0.N = 128 from N_0)
  have hr : 4096 * t.val + r.val < 524288 := by have := r.isLt; omega
  funext k
  unfold rowN
  rw [dif_pos hr]
  unfold iblk
  rw [View.read_apply]
  show V m c main_arg4 _ = m ((c : Thread nD τ).loc main_arg4) _
  rw [V_main_arg4]
  congr 1
  funext a
  apply Fin.ext
  obtain ⟨-, -, -, -, -, -, -, -, e40, e41, -⟩ := idx_facts t
  match a with
  | ⟨0, _⟩ => show win0_4.index t (0 : Fin 2) * 4096 + 1 * r.val = 4096 * t.val + r.val; rw [e40]; omega
  | ⟨1, _⟩ => show win0_4.index t (1 : Fin 2) * 29 + 1 * k.val = k.val; rw [e41]; omega

/-- One head on the blocks of point t is the specification's head on tile t. -/
theorem head_tile {w : ℕ} (X : (⟨2, ![4096, w]⟩ : Shape).Idx → EReal) (Lb : (⟨2, ![4096, 29]⟩ : Shape).Idx → EReal)
    (A : (⟨2, ![524288, w]⟩ : Shape).Idx → EReal) (A4 : (⟨2, ![524288, 29]⟩ : Shape).Idx → EReal)
    (off : ℕ) (h : off + w ≤ 29) (t : ℕ)
    (hX : ∀ r : Fin 4096, (fun k : Fin w => X (ix2 r k)) = rowN A (4096 * t + r.val))
    (hL : ∀ r : Fin 4096, (fun k : Fin 29 => Lb (ix2 r k)) = rowN A4 (4096 * t + r.val)) :
    blkHead X Lb off h = headTile (headRow A A4 off h) t := by
  unfold blkHead headTile
  rw [← Fin.sum_univ_eq_sum_range (fun r => (0 : EReal) - headRow A A4 off h (4096 * t + r)) 4096]
  refine Finset.sum_congr rfl fun r _ => ?_
  unfold headRow
  rw [hX r, hL r]

/-- The tile's total from the blocks at point t is the specification's tile t. -/
theorem tile_blocks (c : Dev nD) (t : Fin cfg0.N) :
    blkTile (iblk m c 0 t : Vec Ideal S4096x8 .f32) (iblk m c 1 t : Vec Ideal S4096x6 .f32)
        (iblk m c 2 t : Vec Ideal S4096x6 .f32) (iblk m c 3 t : Vec Ideal S4096x9 .f32)
        (iblk m c 4 t : Vec Ideal S4096x29 .f32)
      = tile (q1 m c) (q2 m c) (q3 m c) (q4 m c) t.val := by
  unfold blkTile tile q1 q2 q3 q4
  rw [head_tile _ _ (arr0 m c) (arr4 m c) 0 _ t.val (row0 m c t) (row4 m c t),
    head_tile _ _ (arr1 m c) (arr4 m c) 8 _ t.val (row1 m c t) (row4 m c t),
    head_tile _ _ (arr2 m c) (arr4 m c) 14 _ t.val (row2 m c t) (row4 m c t),
    head_tile _ _ (arr3 m c) (arr4 m c) 20 _ t.val (row3 m c t) (row4 m c t)]

/-- The specification's running total, for this core's arrays. -/
abbrev total (c : Dev nD) (n : ℕ) : EReal := acc (tile (q1 m c) (q2 m c) (q3 m c) (q4 m c)) n

theorem total_zero (c : Dev nD) : total m c 0 = 0 + tile (q1 m c) (q2 m c) (q3 m c) (q4 m c) 0 := by
  unfold total; rw [acc]

theorem total_succ (c : Dev nD) (n : ℕ) :
    total m c (n + 1) = if (n + 1) % 64 = 0 then 0 + tile (q1 m c) (q2 m c) (q3 m c) (q4 m c) (n + 1)
      else total m c n + tile (q1 m c) (q2 m c) (q3 m c) (q4 m c) (n + 1) := by
  unfold total; rw [acc]

/-- After point n every lane of the output block's staging buffer holds the running total. -/
theorem outsAt_eq (c : Dev nD) : ∀ (n : ℕ) (h : n < cfg0.N), outsAt0 m c n h = fun _ => total m c n
  | 0, h => by
    rw [outsAt0_A m c ⟨0, h⟩ rfl, out_A]
    funext j
    obtain ⟨u, v, l, rfl⟩ : ∃ (u : Fin 1) (v : Fin 1) (l : Fin 128), j = ix3 u v l := ⟨j 0, j 1, j 2, eq_ix3 j⟩
    obtain rfl : u = 0 := Subsingleton.elim _ _
    obtain rfl : v = 0 := Subsingleton.elim _ _
    rw [step_apply, zeroBlk_apply, tile_blocks, total_zero]
  | n + 1, h => by
    by_cases h0 : (n + 1) % 64 = 0
    · rw [outsAt0_A m c ⟨n + 1, h⟩ h0, out_A]
      funext j
      obtain ⟨u, v, l, rfl⟩ : ∃ (u : Fin 1) (v : Fin 1) (l : Fin 128), j = ix3 u v l := ⟨j 0, j 1, j 2, eq_ix3 j⟩
      obtain rfl : u = 0 := Subsingleton.elim _ _
      obtain rfl : v = 0 := Subsingleton.elim _ _
      rw [step_apply, zeroBlk_apply, tile_blocks, total_succ, if_pos h0]
    · rw [outsAt0_B m c ⟨n + 1, h⟩ h0, out_B]
      funext j
      obtain ⟨u, v, l, rfl⟩ : ∃ (u : Fin 1) (v : Fin 1) (l : Fin 128), j = ix3 u v l := ⟨j 0, j 1, j 2, eq_ix3 j⟩
      obtain rfl : u = 0 := Subsingleton.elim _ _
      obtain rfl : v = 0 := Subsingleton.elim _ _
      rw [step_apply, tile_blocks, total_succ, if_neg h0]
      show outsAt0 m c n _ _ + _ = _
      rw [outsAt_eq c n]

end Cert.SoftNll.K

end
-- ==== Proof.KFinal.lean ====
/-
  The kernel program's result.

  The output array has two blocks of 128 lanes, one per group of 64 tiles.  Block g is written back once, after the
  last point of its group (point 64·g + 63), and then holds in every lane the running total of that group.  The host
  lines after the region read lane 0 of each block, add the two and divide by the number of rows: the specification's
  second grouping.
-/
import proofs.«132585_j30648886624644_2_alg».proof.Proof.KAcc
import Idealize.ShloMosaic.Lib.Pipeline.Value
import Idealize.ShloMosaic.Lib.StableHlo.Run

noncomputable section

open scoped BigOperators

open Idealize.ShloMosaic Idealize.ShloMosaic.TcCoe Idealize.SL.Sem Idealize.ShloMosaic.ValueIdx
open Idealize.ShloMosaic.Pipeline (Dat)

namespace Cert.SoftNll.K

open Cert.KernelIdeal Cert.KernelIdeal.Gen Cert.SoftNll

variable (m : (ℓ : Loc nD τ sig) → Buf (Elt Ideal) ℓ) (ρ : Dev nD → PrngReg)

/-- What the result array ends holding: every lane of block g the running total after the group's last tile. -/
def outArr (c : Dev nD) : Vec Ideal S2x1x128 .f32 := fun j => total m c (64 * (j 0).val + 63)

/-- The same as contents of the result array's buffer. -/
abbrev result (c : Dev nD) : Buf (Elt Ideal) ((c : Thread nD τ).loc main_v0) := outArr m c

/-- What a writing-back point writes is its block of that array: the point is the last of its group, and the block's
    leading coordinate is the group's number. -/
theorem flushed_eq (c : Dev nD) (t : Fin cfg0.N) (hf : (cfg0.win 5).flush t = true) :
    (dats m 0 c).flushed 5 t = ((cfg0.win 5).blk t).view.read (Elt Ideal) (result m c) := by
  have hN : t.val < 128 := lt_of_lt_of_eq t.isLt (show cfg0.N = 128 from N_0)
  have h63 : t.val % 64 = 63 := (flush0_5 t).mp hf
  show (cfg0.win 5).cut (grid0.coords t) ((dats m 0 c).after 5 t) = _
  rw [after0_5, outsAt_eq]
  funext y
  rw [View.read_apply]
  show total m c t.val = total m c (64 * ((((cfg0.win 5).blk t).view.emb y) 0).val + 63)
  obtain ⟨-, -, -, -, -, -, -, -, -, -, e50, -, -⟩ := idx_facts t
  have hy : (y 0).val < 1 := (y 0).isLt
  have e : ((((cfg0.win 5).blk t).view.emb y) 0).val = win0_5.index t (0 : Fin 3) * 1 + 1 * (y 0).val := rfl
  rw [e, e50]
  congr 1
  omega

/-- An index of the result array is in point t's block iff each coordinate is in the block's range on its axis. -/
theorem mem_blk (t : Fin cfg0.N) (i : S2x1x128.Idx) :
    i ∈ ((cfg0.win 5).blk t).view.set ↔ ∀ a : Fin 3, win0_5.index t a * S1x1x128.size a ≤ (i a).val
      ∧ (i a).val < win0_5.index t a * S1x1x128.size a + S1x1x128.size a := by
  show i ∈ ((View.whole main_v0).slice (win0_5.rect t)).set ↔ _
  rw [View.set_slice_whole, Rect.mem_set_unit]
  exact Iff.rfl

/-- The two written-back blocks cover the array, so it ends holding `result`. -/
theorem final_o (c : Dev nD) : (dats m 0 c).arrAt 5 cfg0.N = result m c :=
  (dats m 0 c).arrAt_eq_of_cover 5 (result m c) (flushed_eq m c) fun i => by
    have hi0 : (i 0).val < 2 := (i 0).isLt
    have hi1 : (i 1).val < 1 := (i 1).isLt
    have hi2 : (i 2).val < 128 := (i 2).isLt
    have hlt : 64 * (i 0).val + 63 < cfg0.N := by rw [show cfg0.N = 128 from N_0]; omega
    refine ⟨⟨64 * (i 0).val + 63, hlt⟩, (flush0_5 _).mpr (by show (64 * (i 0).val + 63) % 64 = 63; omega), ?_⟩
    rw [mem_blk]
    obtain ⟨-, -, -, -, -, -, -, -, -, -, e50, e51, e52⟩ := idx_facts ⟨64 * (i 0).val + 63, hlt⟩
    have e50' : win0_5.index ⟨64 * (i 0).val + 63, hlt⟩ (0 : Fin 3) = (64 * (i 0).val + 63) / 64 := e50
    intro a
    match a with
    | ⟨0, _⟩ =>
      show win0_5.index ⟨64 * (i 0).val + 63, hlt⟩ (0 : Fin 3) * 1 ≤ (i 0).val
        ∧ (i 0).val < win0_5.index ⟨64 * (i 0).val + 63, hlt⟩ (0 : Fin 3) * 1 + 1
      rw [e50']; omega
    | ⟨1, _⟩ =>
      show win0_5.index ⟨64 * (i 0).val + 63, hlt⟩ (1 : Fin 3) * 1 ≤ (i 1).val
        ∧ (i 1).val < win0_5.index ⟨64 * (i 0).val + 63, hlt⟩ (1 : Fin 3) * 1 + 1
      rw [e51]; omega
    | ⟨2, _⟩ =>
      show win0_5.index ⟨64 * (i 0).val + 63, hlt⟩ (2 : Fin 3) * 128 ≤ (i 2).val
        ∧ (i 2).val < win0_5.index ⟨64 * (i 0).val + 63, hlt⟩ (2 : Fin 3) * 128 + 128
      rw [e52]; omega

/-- A one-entry cube viewed as a scalar reads its entry. -/
theorem cube_scalar_apply {α : Type} (x : S1x1x1.Idx → α) (i : S_.Idx) :
    shapeCast S_ x shapeCasts_S1x1x1_S_ i = x (ix3 (0 : Fin 1) (0 : Fin 1) (0 : Fin 1)) :=
  shapeCast_apply x shapeCasts_S1x1x1_S_ i (ix3 (0 : Fin 1) (0 : Fin 1) (0 : Fin 1)) (by
    have h1 := (S1x1x1.rowMajor (ix3 (0 : Fin 1) (0 : Fin 1) (0 : Fin 1))).isLt
    have h2 := (S_.rowMajor i).isLt
    have e1 : S1x1x1.numel = 1 := by decide
    have e2 : S_.numel = 1 := by decide
    have h1' : (S1x1x1.rowMajor (ix3 (0 : Fin 1) (0 : Fin 1) (0 : Fin 1))).val < 1 := lt_of_lt_of_eq h1 e1
    have h2' : (S_.rowMajor i).val < 1 := lt_of_lt_of_eq h2 e2
    omega)

/-- The corner entry of block g of the result array, cut out as a one-entry cube. -/
theorem corner_apply (X : S2x1x128.Idx → EReal) (g : Fin 2) (off : Fin 3 → Nat) (hoff : off = ![g.val, 0, 0])
    (hs : S2x1x128.Slices off S1x1x1) :
    extractStridedSlice S1x1x1 off X hs (ix3 (0 : Fin 1) (0 : Fin 1) (0 : Fin 1)) = X (ix3 g (0 : Fin 1) (0 : Fin 128)) := by
  subst hoff
  refine extractStridedSlice_apply _ X hs _ (ix3 g (0 : Fin 1) (0 : Fin 128)) fun a => ?_
  match a with
  | ⟨0, _⟩ => rfl
  | ⟨1, _⟩ => rfl
  | ⟨2, _⟩ => rfl

/-- The host lines after the region, applied to the result array: lane 0 of each block, added, divided by the number
    of rows. -/
theorem tail_value (c : Dev nD) :
    Pipeline.afterTail₀ cfgs (dats m) 0 (V0 m) [hostOps1] c main_v6
      = fun _ => tiledValue (q1 m c) (q2 m c) (q3 m c) (q4 m c) := by
  unfold Pipeline.afterTail₀
  show StableHlo.after hostOps1 _ (Proc.devRef .tc main_v6) = _
  after_results
  have hA : Pipeline.withArrays (cfgs 0).spec c (V0 m c) (fun w => (dats m 0 c).arrAt w (cfgs 0).N)
      (Proc.devRef .tc main_v0) = result m c :=
    (Pipeline.withArrays_arr spec0 launch0.win.arr_inj c _ _ 5).trans (final_o m c)
  rw [hA]
  funext i
  show Ideal.div
      (shapeCast S_ (extractStridedSlice S1x1x1 ![0, 0, 0] (outArr m c) slices_S2x1x128_S1x1x1_0_0_0) shapeCasts_S1x1x1_S_ i
        + shapeCast S_ (extractStridedSlice S1x1x1 ![1, 0, 0] (outArr m c) slices_S2x1x128_S1x1x1_1_0_0)
            shapeCasts_S1x1x1_S_ i) nRows = _
  rw [cube_scalar_apply, cube_scalar_apply,
    corner_apply (outArr m c) (0 : Fin 2) ![0, 0, 0] rfl slices_S2x1x128_S1x1x1_0_0_0,
    corner_apply (outArr m c) (1 : Fin 2) ![1, 0, 0] rfl slices_S2x1x128_S1x1x1_1_0_0]
  rfl

/-- THE KERNEL PROGRAM'S RUN, READ: it ends with its result at the specification's second grouping of the row
    losses of its arguments, and the arguments unchanged. -/
theorem run : θ_run defs (onTc (τ := τ) (main (F := Ideal))) ⟨m, fun _ => 0, ρ⟩ fun r => ∀ c : Dev nD,
      r.2.mem ((c.tc : Thread nD τ).loc main_v6) = (fun _ => tiledValue (q1 m c) (q2 m c) (q3 m c) (q4 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).2 main_v6 (by decide)).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.SoftNll.K

end
-- ==== Proof.RefRead.lean ====
/-
  The reference program's result, read as the specification's first grouping.

  Each of the four heads takes, row by row, the softmax of its logits shifted by the row's maximum, adds ε, takes the
  logarithm and weights it by the labels found in a range of columns of the label array; it sums every entry of the
  resulting n × w array from zero and negates the sum.  The sum over every entry is the sum over the rows of the sum
  over a row's entries, which is the row's loss; so a head is the negated whole sum of its row losses.  The four heads
  are added in order and the total is divided by the number of rows.
-/
import proofs.«132585_j30648886624644_2_alg».proof.Proof.Spec
import proofs.«132585_j30648886624644_2_alg».proof.Proof.Gen.ReferenceIdeal.Read
import Idealize.ShloMosaic.Lib.ValueIdx
import Idealize.ShloMosaic.PureOps.Ideal.Laws

noncomputable section

open scoped BigOperators

namespace Cert.SoftNll

open Idealize.ShloMosaic Idealize.ShloMosaic.ValueIdx Cert.ReferenceIdeal Cert.ReferenceIdeal.Gen Cert.ReferenceIdeal.Read

/-- Inside the array, row r read at column c is the array's entry (r, c). -/
theorem rowN_fin {n b : ℕ} (x : (⟨2, ![n, b]⟩ : Shape).Idx → EReal) (r : Fin n) (c : Fin b) :
    rowN x r.val c = x (ix2 r c) := by
  unfold rowN
  rw [dif_pos r.isLt]

/-- An n × w array whose entry (r, c) is the term of column c in row r sums, over every entry from zero, to the sum of
    the row losses; negated, it is the head's whole value.  The sum over all entries is taken row by row, and the rows
    are then counted by their numbers 0 … n − 1. -/
theorem headAll_of_entries {n w B : ℕ} (x : (⟨2, ![n, w]⟩ : Shape).Idx → EReal)
    (L : (⟨2, ![n, B]⟩ : Shape).Idx → EReal) (off : ℕ) (h : off + w ≤ B)
    (v : (⟨2, ![n, w]⟩ : Shape).Idx → EReal)
    (hv : ∀ (r : Fin n) (c : Fin w), v (ix2 r c) = rowTerm (rowN x r.val) (seg off w h (rowN L r.val)) c)
    (z : EReal) (hz : z = 0) :
    -(z + ∑ j, v j) = headAll (headRow x L off h) n := by
  subst hz
  unfold headAll
  rw [sum_idx2, ← Fin.sum_univ_eq_sum_range (fun r => headRow x L off h r) n]
  refine congrArg (fun s => -(0 + s)) (Finset.sum_congr rfl fun r _ => ?_)
  unfold headRow rowLoss
  exact Finset.sum_congr rfl fun c _ => hv r c

/-! ### Head 1: logits of width 8, labels in columns 0 … 7 -/

/-- The shift of row r: the maximum of −∞ and the row's running maximum from −∞. -/
theorem head1_max (x0 : (⟨S524288x8, .f32⟩ : BufTy).Contents (Elt Ideal)) (r : Fin 524288) :
    val_main_v3 (F := Ideal) x0 (ix1 r) = rowMax (rowN (n := 524288) (b := 8) x0 r.val) := by
  rw [val_main_v3_apply, val_main_v2_apply, val_main_cst_0_apply]
  unfold val_main_v1
  unfold rowMax negInf
  refine congrArg (max (Ideal.ofBits .f32 0xFF800000#32)) ?_
  refine (Host.reduce_eq_fold_single (α := EReal) (FloatOps.maximumf (F := Ideal) (φ := .f32)) x0
    (val_main_cst (F := Ideal)) reducesTo_S524288x8_S524288_d1 (by decide) h_S_ (ix1 r)).trans ?_
  refine Finset.fold_congr fun c _ => ?_
  refine Eq.trans ?_ (rowN_fin (n := 524288) (b := 8) x0 r c).symm
  exact congrArg x0 (funext fun a => Fin.ext (by match a with | ⟨0, _⟩ => rfl | ⟨1, _⟩ => rfl))

/-- The shifted exponential at (r, c). -/
theorem head1_exp (x0 : (⟨S524288x8, .f32⟩ : BufTy).Contents (Elt Ideal)) (r : Fin 524288) (c : Fin 8) :
    val_main_v7 (F := Ideal) x0 (ix2 r c) = rowExp (rowN (n := 524288) (b := 8) x0 r.val) c := by
  rw [val_main_v7_apply, val_main_v6_apply, val_main_v5_apply, val_main_v4_apply]
  have e : idx_main_v4 (idx_main_v5 (ix2 r c)) = ix1 r :=
    funext fun a => Fin.ext (by match a with | ⟨0, _⟩ => rfl)
  rw [e, head1_max]
  unfold rowExp
  rw [rowN_fin]
  rfl

/-- The row's sum of shifted exponentials, broadcast back to (r, c): the sum from zero is the sum. -/
theorem head1_sum (x0 : (⟨S524288x8, .f32⟩ : BufTy).Contents (Elt Ideal)) (r : Fin 524288) (c : Fin 8) :
    val_main_v10 (F := Ideal) x0 (ix2 r c) = ∑ k, rowExp (rowN (n := 524288) (b := 8) x0 r.val) k := by
  rw [val_main_v10_apply, val_main_v9_apply, val_main_v8_apply, val_main_cst_1_apply, Ideal.ofBits_def, Ideal.ofBits_zero_f32, zero_add]
  refine Finset.sum_congr rfl fun k _ => ?_
  have e : idx_main_v8 (idx_main_v9 (idx_main_v10 (ix2 r c))) k = ix2 r k :=
    funext fun a => Fin.ext (by match a with | ⟨0, _⟩ => rfl | ⟨1, _⟩ => rfl)
  rw [e]
  exact head1_exp x0 r k

/-- The label slice at (r, c) is entry 0 + c of row r of the label array. -/
theorem head1_label (x4 : (⟨S524288x29, .f32⟩ : BufTy).Contents (Elt Ideal)) (r : Fin 524288) (c : Fin 8) :
    val_main_v0 (F := Ideal) x4 (ix2 r c)
      = seg 0 8 (by norm_num) (rowN (n := 524288) (b := 29) x4 r.val) c := by
  rw [val_main_v0_apply]
  unfold seg
  rw [rowN_fin]
  exact congrArg x4 (funext fun a => Fin.ext (by
    match a with
    | ⟨0, _⟩ => rfl
    | ⟨1, _⟩ => show (idx_main_v0 (ix2 r c) ⟨1, _⟩).val = 0 + c.val; simp [idx_main_v0]))

/-- The entry (r, c) the head sums: the term of column c in row r. -/
theorem head1_term (x0 : (⟨S524288x8, .f32⟩ : BufTy).Contents (Elt Ideal)) (x4 : (⟨S524288x29, .f32⟩ : BufTy).Contents (Elt Ideal)) (r : Fin 524288) (c : Fin 8) :
    val_main_v15 (F := Ideal) x0 x4 (ix2 r c)
      = rowTerm (rowN (n := 524288) (b := 8) x0 r.val) (seg 0 8 (by norm_num) (rowN (n := 524288) (b := 29) x4 r.val)) c := by
  rw [val_main_v15_apply, val_main_v14_apply, val_main_v13_apply, val_main_v12_apply, val_main_cst_2_apply, val_main_v11_apply,
    head1_exp, head1_sum, head1_label]
  rfl

/-- Head 1 is the negated whole sum of its row losses. -/
theorem head1_value (x0 : (⟨S524288x8, .f32⟩ : BufTy).Contents (Elt Ideal)) (x4 : (⟨S524288x29, .f32⟩ : BufTy).Contents (Elt Ideal)) (i : S_.Idx) :
    val_main_v17 (F := Ideal) x0 x4 i
      = headAll (headRow (n := 524288) (w := 8) (B := 29) x0 x4 0 (by norm_num)) 524288 := by
  rw [val_main_v17_apply, val_main_v16_apply, val_main_cst_3_apply, Ideal.hostNegf_def]
  exact headAll_of_entries (n := 524288) (w := 8) (B := 29) x0 x4 0 (by norm_num)
    (val_main_v15 (F := Ideal) x0 x4) (head1_term x0 x4) _ (by rw [Ideal.ofBits_def, Ideal.ofBits_zero_f32])

/-! ### Head 2: logits of width 6, labels in columns 8 … 13 -/

/-- The shift of row r: the maximum of −∞ and the row's running maximum from −∞. -/
theorem head2_max (x1 : (⟨S524288x6, .f32⟩ : BufTy).Contents (Elt Ideal)) (r : Fin 524288) :
    val_main_v21 (F := Ideal) x1 (ix1 r) = rowMax (rowN (n := 524288) (b := 6) x1 r.val) := by
  rw [val_main_v21_apply, val_main_v20_apply, val_main_cst_5_apply]
  unfold val_main_v19
  unfold rowMax negInf
  refine congrArg (max (Ideal.ofBits .f32 0xFF800000#32)) ?_
  refine (Host.reduce_eq_fold_single (α := EReal) (FloatOps.maximumf (F := Ideal) (φ := .f32)) x1
    (val_main_cst_4 (F := Ideal)) reducesTo_S524288x6_S524288_d1 (by decide) h_S_ (ix1 r)).trans ?_
  refine Finset.fold_congr fun c _ => ?_
  refine Eq.trans ?_ (rowN_fin (n := 524288) (b := 6) x1 r c).symm
  exact congrArg x1 (funext fun a => Fin.ext (by match a with | ⟨0, _⟩ => rfl | ⟨1, _⟩ => rfl))

/-- The shifted exponential at (r, c). -/
theorem head2_exp (x1 : (⟨S524288x6, .f32⟩ : BufTy).Contents (Elt Ideal)) (r : Fin 524288) (c : Fin 6) :
    val_main_v25 (F := Ideal) x1 (ix2 r c) = rowExp (rowN (n := 524288) (b := 6) x1 r.val) c := by
  rw [val_main_v25_apply, val_main_v24_apply, val_main_v23_apply, val_main_v22_apply]
  have e : idx_main_v22 (idx_main_v23 (ix2 r c)) = ix1 r :=
    funext fun a => Fin.ext (by match a with | ⟨0, _⟩ => rfl)
  rw [e, head2_max]
  unfold rowExp
  rw [rowN_fin]
  rfl

/-- The row's sum of shifted exponentials, broadcast back to (r, c): the sum from zero is the sum. -/
theorem head2_sum (x1 : (⟨S524288x6, .f32⟩ : BufTy).Contents (Elt Ideal)) (r : Fin 524288) (c : Fin 6) :
    val_main_v28 (F := Ideal) x1 (ix2 r c) = ∑ k, rowExp (rowN (n := 524288) (b := 6) x1 r.val) k := by
  rw [val_main_v28_apply, val_main_v27_apply, val_main_v26_apply, val_main_cst_6_apply, Ideal.ofBits_def, Ideal.ofBits_zero_f32, zero_add]
  refine Finset.sum_congr rfl fun k _ => ?_
  have e : idx_main_v26 (idx_main_v27 (idx_main_v28 (ix2 r c))) k = ix2 r k :=
    funext fun a => Fin.ext (by match a with | ⟨0, _⟩ => rfl | ⟨1, _⟩ => rfl)
  rw [e]
  exact head2_exp x1 r k

/-- The label slice at (r, c) is entry 8 + c of row r of the label array. -/
theorem head2_label (x4 : (⟨S524288x29, .f32⟩ : BufTy).Contents (Elt Ideal)) (r : Fin 524288) (c : Fin 6) :
    val_main_v18 (F := Ideal) x4 (ix2 r c)
      = seg 8 6 (by norm_num) (rowN (n := 524288) (b := 29) x4 r.val) c := by
  rw [val_main_v18_apply]
  unfold seg
  rw [rowN_fin]
  exact congrArg x4 (funext fun a => Fin.ext (by
    match a with
    | ⟨0, _⟩ => rfl
    | ⟨1, _⟩ => show (idx_main_v18 (ix2 r c) ⟨1, _⟩).val = 8 + c.val; simp [idx_main_v18]))

/-- The entry (r, c) the head sums: the term of column c in row r. -/
theorem head2_term (x1 : (⟨S524288x6, .f32⟩ : BufTy).Contents (Elt Ideal)) (x4 : (⟨S524288x29, .f32⟩ : BufTy).Contents (Elt Ideal)) (r : Fin 524288) (c : Fin 6) :
    val_main_v33 (F := Ideal) x1 x4 (ix2 r c)
      = rowTerm (rowN (n := 524288) (b := 6) x1 r.val) (seg 8 6 (by norm_num) (rowN (n := 524288) (b := 29) x4 r.val)) c := by
  rw [val_main_v33_apply, val_main_v32_apply, val_main_v31_apply, val_main_v30_apply, val_main_cst_7_apply, val_main_v29_apply,
    head2_exp, head2_sum, head2_label]
  rfl

/-- Head 2 is the negated whole sum of its row losses. -/
theorem head2_value (x1 : (⟨S524288x6, .f32⟩ : BufTy).Contents (Elt Ideal)) (x4 : (⟨S524288x29, .f32⟩ : BufTy).Contents (Elt Ideal)) (i : S_.Idx) :
    val_main_v35 (F := Ideal) x1 x4 i
      = headAll (headRow (n := 524288) (w := 6) (B := 29) x1 x4 8 (by norm_num)) 524288 := by
  rw [val_main_v35_apply, val_main_v34_apply, val_main_cst_8_apply, Ideal.hostNegf_def]
  exact headAll_of_entries (n := 524288) (w := 6) (B := 29) x1 x4 8 (by norm_num)
    (val_main_v33 (F := Ideal) x1 x4) (head2_term x1 x4) _ (by rw [Ideal.ofBits_def, Ideal.ofBits_zero_f32])

/-! ### Head 3: logits of width 6, labels in columns 14 … 19 -/

/-- The shift of row r: the maximum of −∞ and the row's running maximum from −∞. -/
theorem head3_max (x2 : (⟨S524288x6, .f32⟩ : BufTy).Contents (Elt Ideal)) (r : Fin 524288) :
    val_main_v39 (F := Ideal) x2 (ix1 r) = rowMax (rowN (n := 524288) (b := 6) x2 r.val) := by
  rw [val_main_v39_apply, val_main_v38_apply, val_main_cst_10_apply]
  unfold val_main_v37
  unfold rowMax negInf
  refine congrArg (max (Ideal.ofBits .f32 0xFF800000#32)) ?_
  refine (Host.reduce_eq_fold_single (α := EReal) (FloatOps.maximumf (F := Ideal) (φ := .f32)) x2
    (val_main_cst_9 (F := Ideal)) reducesTo_S524288x6_S524288_d1 (by decide) h_S_ (ix1 r)).trans ?_
  refine Finset.fold_congr fun c _ => ?_
  refine Eq.trans ?_ (rowN_fin (n := 524288) (b := 6) x2 r c).symm
  exact congrArg x2 (funext fun a => Fin.ext (by match a with | ⟨0, _⟩ => rfl | ⟨1, _⟩ => rfl))

/-- The shifted exponential at (r, c). -/
theorem head3_exp (x2 : (⟨S524288x6, .f32⟩ : BufTy).Contents (Elt Ideal)) (r : Fin 524288) (c : Fin 6) :
    val_main_v43 (F := Ideal) x2 (ix2 r c) = rowExp (rowN (n := 524288) (b := 6) x2 r.val) c := by
  rw [val_main_v43_apply, val_main_v42_apply, val_main_v41_apply, val_main_v40_apply]
  have e : idx_main_v40 (idx_main_v41 (ix2 r c)) = ix1 r :=
    funext fun a => Fin.ext (by match a with | ⟨0, _⟩ => rfl)
  rw [e, head3_max]
  unfold rowExp
  rw [rowN_fin]
  rfl

/-- The row's sum of shifted exponentials, broadcast back to (r, c): the sum from zero is the sum. -/
theorem head3_sum (x2 : (⟨S524288x6, .f32⟩ : BufTy).Contents (Elt Ideal)) (r : Fin 524288) (c : Fin 6) :
    val_main_v46 (F := Ideal) x2 (ix2 r c) = ∑ k, rowExp (rowN (n := 524288) (b := 6) x2 r.val) k := by
  rw [val_main_v46_apply, val_main_v45_apply, val_main_v44_apply, val_main_cst_11_apply, Ideal.ofBits_def, Ideal.ofBits_zero_f32, zero_add]
  refine Finset.sum_congr rfl fun k _ => ?_
  have e : idx_main_v44 (idx_main_v45 (idx_main_v46 (ix2 r c))) k = ix2 r k :=
    funext fun a => Fin.ext (by match a with | ⟨0, _⟩ => rfl | ⟨1, _⟩ => rfl)
  rw [e]
  exact head3_exp x2 r k

/-- The label slice at (r, c) is entry 14 + c of row r of the label array. -/
theorem head3_label (x4 : (⟨S524288x29, .f32⟩ : BufTy).Contents (Elt Ideal)) (r : Fin 524288) (c : Fin 6) :
    val_main_v36 (F := Ideal) x4 (ix2 r c)
      = seg 14 6 (by norm_num) (rowN (n := 524288) (b := 29) x4 r.val) c := by
  rw [val_main_v36_apply]
  unfold seg
  rw [rowN_fin]
  exact congrArg x4 (funext fun a => Fin.ext (by
    match a with
    | ⟨0, _⟩ => rfl
    | ⟨1, _⟩ => show (idx_main_v36 (ix2 r c) ⟨1, _⟩).val = 14 + c.val; simp [idx_main_v36]))

/-- The entry (r, c) the head sums: the term of column c in row r. -/
theorem head3_term (x2 : (⟨S524288x6, .f32⟩ : BufTy).Contents (Elt Ideal)) (x4 : (⟨S524288x29, .f32⟩ : BufTy).Contents (Elt Ideal)) (r : Fin 524288) (c : Fin 6) :
    val_main_v51 (F := Ideal) x2 x4 (ix2 r c)
      = rowTerm (rowN (n := 524288) (b := 6) x2 r.val) (seg 14 6 (by norm_num) (rowN (n := 524288) (b := 29) x4 r.val)) c := by
  rw [val_main_v51_apply, val_main_v50_apply, val_main_v49_apply, val_main_v48_apply, val_main_cst_12_apply, val_main_v47_apply,
    head3_exp, head3_sum, head3_label]
  rfl

/-- Head 3 is the negated whole sum of its row losses. -/
theorem head3_value (x2 : (⟨S524288x6, .f32⟩ : BufTy).Contents (Elt Ideal)) (x4 : (⟨S524288x29, .f32⟩ : BufTy).Contents (Elt Ideal)) (i : S_.Idx) :
    val_main_v53 (F := Ideal) x2 x4 i
      = headAll (headRow (n := 524288) (w := 6) (B := 29) x2 x4 14 (by norm_num)) 524288 := by
  rw [val_main_v53_apply, val_main_v52_apply, val_main_cst_13_apply, Ideal.hostNegf_def]
  exact headAll_of_entries (n := 524288) (w := 6) (B := 29) x2 x4 14 (by norm_num)
    (val_main_v51 (F := Ideal) x2 x4) (head3_term x2 x4) _ (by rw [Ideal.ofBits_def, Ideal.ofBits_zero_f32])

/-! ### Head 4: logits of width 9, labels in columns 20 … 28 -/

/-- The shift of row r: the maximum of −∞ and the row's running maximum from −∞. -/
theorem head4_max (x3 : (⟨S524288x9, .f32⟩ : BufTy).Contents (Elt Ideal)) (r : Fin 524288) :
    val_main_v57 (F := Ideal) x3 (ix1 r) = rowMax (rowN (n := 524288) (b := 9) x3 r.val) := by
  rw [val_main_v57_apply, val_main_v56_apply, val_main_cst_15_apply]
  unfold val_main_v55
  unfold rowMax negInf
  refine congrArg (max (Ideal.ofBits .f32 0xFF800000#32)) ?_
  refine (Host.reduce_eq_fold_single (α := EReal) (FloatOps.maximumf (F := Ideal) (φ := .f32)) x3
    (val_main_cst_14 (F := Ideal)) reducesTo_S524288x9_S524288_d1 (by decide) h_S_ (ix1 r)).trans ?_
  refine Finset.fold_congr fun c _ => ?_
  refine Eq.trans ?_ (rowN_fin (n := 524288) (b := 9) x3 r c).symm
  exact congrArg x3 (funext fun a => Fin.ext (by match a with | ⟨0, _⟩ => rfl | ⟨1, _⟩ => rfl))

/-- The shifted exponential at (r, c). -/
theorem head4_exp (x3 : (⟨S524288x9, .f32⟩ : BufTy).Contents (Elt Ideal)) (r : Fin 524288) (c : Fin 9) :
    val_main_v61 (F := Ideal) x3 (ix2 r c) = rowExp (rowN (n := 524288) (b := 9) x3 r.val) c := by
  rw [val_main_v61_apply, val_main_v60_apply, val_main_v59_apply, val_main_v58_apply]
  have e : idx_main_v58 (idx_main_v59 (ix2 r c)) = ix1 r :=
    funext fun a => Fin.ext (by match a with | ⟨0, _⟩ => rfl)
  rw [e, head4_max]
  unfold rowExp
  rw [rowN_fin]
  rfl

/-- The row's sum of shifted exponentials, broadcast back to (r, c): the sum from zero is the sum. -/
theorem head4_sum (x3 : (⟨S524288x9, .f32⟩ : BufTy).Contents (Elt Ideal)) (r : Fin 524288) (c : Fin 9) :
    val_main_v64 (F := Ideal) x3 (ix2 r c) = ∑ k, rowExp (rowN (n := 524288) (b := 9) x3 r.val) k := by
  rw [val_main_v64_apply, val_main_v63_apply, val_main_v62_apply, val_main_cst_16_apply, Ideal.ofBits_def, Ideal.ofBits_zero_f32, zero_add]
  refine Finset.sum_congr rfl fun k _ => ?_
  have e : idx_main_v62 (idx_main_v63 (idx_main_v64 (ix2 r c))) k = ix2 r k :=
    funext fun a => Fin.ext (by match a with | ⟨0, _⟩ => rfl | ⟨1, _⟩ => rfl)
  rw [e]
  exact head4_exp x3 r k

/-- The label slice at (r, c) is entry 20 + c of row r of the label array. -/
theorem head4_label (x4 : (⟨S524288x29, .f32⟩ : BufTy).Contents (Elt Ideal)) (r : Fin 524288) (c : Fin 9) :
    val_main_v54 (F := Ideal) x4 (ix2 r c)
      = seg 20 9 (by norm_num) (rowN (n := 524288) (b := 29) x4 r.val) c := by
  rw [val_main_v54_apply]
  unfold seg
  rw [rowN_fin]
  exact congrArg x4 (funext fun a => Fin.ext (by
    match a with
    | ⟨0, _⟩ => rfl
    | ⟨1, _⟩ => show (idx_main_v54 (ix2 r c) ⟨1, _⟩).val = 20 + c.val; simp [idx_main_v54]))

/-- The entry (r, c) the head sums: the term of column c in row r. -/
theorem head4_term (x3 : (⟨S524288x9, .f32⟩ : BufTy).Contents (Elt Ideal)) (x4 : (⟨S524288x29, .f32⟩ : BufTy).Contents (Elt Ideal)) (r : Fin 524288) (c : Fin 9) :
    val_main_v69 (F := Ideal) x3 x4 (ix2 r c)
      = rowTerm (rowN (n := 524288) (b := 9) x3 r.val) (seg 20 9 (by norm_num) (rowN (n := 524288) (b := 29) x4 r.val)) c := by
  rw [val_main_v69_apply, val_main_v68_apply, val_main_v67_apply, val_main_v66_apply, val_main_cst_17_apply, val_main_v65_apply,
    head4_exp, head4_sum, head4_label]
  rfl

/-- Head 4 is the negated whole sum of its row losses. -/
theorem head4_value (x3 : (⟨S524288x9, .f32⟩ : BufTy).Contents (Elt Ideal)) (x4 : (⟨S524288x29, .f32⟩ : BufTy).Contents (Elt Ideal)) (i : S_.Idx) :
    val_main_v71 (F := Ideal) x3 x4 i
      = headAll (headRow (n := 524288) (w := 9) (B := 29) x3 x4 20 (by norm_num)) 524288 := by
  rw [val_main_v71_apply, val_main_v70_apply, val_main_cst_18_apply, Ideal.hostNegf_def]
  exact headAll_of_entries (n := 524288) (w := 9) (B := 29) x3 x4 20 (by norm_num)
    (val_main_v69 (F := Ideal) x3 x4) (head4_term x3 x4) _ (by rw [Ideal.ofBits_def, Ideal.ofBits_zero_f32])

/-! ### The whole value -/

open Idealize.ShloMosaic in
/-- The reference's result: the four negated whole sums added in order, divided by the number of rows. -/
theorem ref_value (x0 : (⟨Cert.ReferenceIdeal.S524288x8, .f32⟩ : BufTy).Contents (Elt Ideal))
    (x1 x2 : (⟨Cert.ReferenceIdeal.S524288x6, .f32⟩ : BufTy).Contents (Elt Ideal))
    (x3 : (⟨Cert.ReferenceIdeal.S524288x9, .f32⟩ : BufTy).Contents (Elt Ideal))
    (x4 : (⟨Cert.ReferenceIdeal.S524288x29, .f32⟩ : BufTy).Contents (Elt Ideal)) (i : Cert.ReferenceIdeal.S_.Idx) :
    Cert.ReferenceIdeal.Read.val_main_v75 (F := Ideal) x0 x1 x2 x3 x4 i
      = wholeValue (headRow (n := 524288) (w := 8) (B := 29) x0 x4 0 (by norm_num))
                   (headRow (n := 524288) (w := 6) (B := 29) x1 x4 8 (by norm_num))
                   (headRow (n := 524288) (w := 6) (B := 29) x2 x4 14 (by norm_num))
                   (headRow (n := 524288) (w := 9) (B := 29) x3 x4 20 (by norm_num)) := by
  rw [val_main_v75_apply, val_main_v74_apply, val_main_v73_apply, val_main_v72_apply,
    head1_value, head2_value, head3_value, head4_value, val_main_cst_19_apply]
  rfl

end Cert.SoftNll

end
-- ==== Proof.LibLoraLaw.lean ====
/-
  The algebra of a linear layer with a low-rank update, on the extended reals.

  A layer maps a row v to  v·Wᵀ + b + (v·Aᵀ)·Bᵀ.  Folding the update into the weight, W' = W + B·A, the same row is
  v·W'ᵀ + b.  The two agree wherever every entry is a real number: the identity is distributivity and a change of
  the order of summation, which the extended reals only grant away from the infinities.  Real entries stay real
  through sums, products and tanh, so a stack of such layers can be compared layer by layer.
  Also here: a sum over G·K positions of a summand that vanishes outside the g-th group of K is the sum over that group.
-/
import Idealize.ShloMosaic.PureOps.Ideal.Laws

noncomputable section

open scoped BigOperators

namespace Cert.LibLoraLaw

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h _ (Finset.mem_insert_self _ _)).add (ih fun i hi => h i (Finset.mem_insert_of_mem hi))

/-- tanh of anything is a real number (it is ±1 at the infinities). -/
theorem isReal_tanh (x : EReal) : IsReal (Idealize.ShloMosaic.Ideal.tanh x) := by
  induction x using EReal.rec with
  | bot => exact ⟨-1, by simp⟩
  | coe r => exact ⟨Real.tanh r, rfl⟩
  | top => exact ⟨1, by simp⟩

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the image of a family of reals. -/
theorem exists_real_family {ι : Type*} (f : ι → EReal) (h : ∀ i, IsReal (f i)) : ∃ g : ι → ℝ, f = fun i => (g i : EReal) :=
  ⟨fun i => (h i).choose, funext fun i => (h i).choose_spec⟩

/-- One output of the layer with the update folded into the weight: Σ_k v_k (W_k + Σ_r B_r A_{r k}) + b. -/
def foldedOut {κ ρ : Type*} [Fintype κ] [Fintype ρ] (v W : κ → EReal) (b : EReal) (A : ρ → κ → EReal) (B : ρ → EReal) : EReal :=
  (∑ k, v k * (W k + ∑ r, B r * A r k)) + b

/-- One output of the layer as the reference spells it: Σ_k v_k W_k + b + Σ_r (Σ_k v_k A_{r k}) B_r. -/
def splitOut {κ ρ : Type*} [Fintype κ] [Fintype ρ] (v W : κ → EReal) (b : EReal) (A : ρ → κ → EReal) (B : ρ → EReal) : EReal :=
  (∑ k, v k * W k) + b + ∑ r, (∑ k, v k * A r k) * B r

/-- Folding the low-rank update into the weight does not change the layer's output, when the row, the weight and the
    two factors are real: v·(W + B A)ᵀ = v·Wᵀ + (v·Aᵀ)·Bᵀ by distributivity and exchanging the two sums. -/
theorem folded_eq_split {κ ρ : Type*} [Fintype κ] [Fintype ρ] (v W : κ → EReal) (b : EReal) (A : ρ → κ → EReal) (B : ρ → EReal)
    (hv : ∀ k, IsReal (v k)) (hW : ∀ k, IsReal (W k)) (hA : ∀ r k, IsReal (A r k)) (hB : ∀ r, IsReal (B r)) :
    foldedOut v W b A B = splitOut v W b A B := by
  obtain ⟨v', rfl⟩ := exists_real_family v hv
  obtain ⟨W', rfl⟩ := exists_real_family W hW
  obtain ⟨B', rfl⟩ := exists_real_family B hB
  obtain ⟨A', hA'⟩ : ∃ g : ρ → κ → ℝ, A = fun r k => (g r k : EReal) :=
    ⟨fun r k => (hA r k).choose, funext fun r => funext fun k => (hA r k).choose_spec⟩
  subst hA'
  unfold foldedOut splitOut
  have key : (∑ k, v' k * (W' k + ∑ r, B' r * A' r k)) = (∑ k, v' k * W' k) + ∑ r, (∑ k, v' k * A' r k) * B' r := by
    simp only [mul_add, Finset.sum_add_distrib, Finset.mul_sum, Finset.sum_mul]
    congr 1
    rw [Finset.sum_comm]
    exact Finset.sum_congr rfl fun r _ => Finset.sum_congr rfl fun k _ => by ring
  have e1 : (∑ k, (v' k : EReal) * ((W' k : EReal) + ∑ r, (B' r : EReal) * (A' r k : EReal)))
      = ((∑ k, v' k * (W' k + ∑ r, B' r * A' r k) : ℝ) : EReal) := by
    rw [coe_sum]
    refine Finset.sum_congr rfl fun k _ => ?_
    rw [EReal.coe_mul, EReal.coe_add, coe_sum]
    simp only [EReal.coe_mul]
  have e2 : (∑ k, (v' k : EReal) * (W' k : EReal)) + ∑ r, (∑ k, (v' k : EReal) * (A' r k : EReal)) * (B' r : EReal)
      = (((∑ k, v' k * W' k) + ∑ r, (∑ k, v' k * A' r k) * B' r : ℝ) : EReal) := by
    rw [EReal.coe_add, coe_sum, coe_sum]
    have a1 : ∀ k, ((v' k * W' k : ℝ) : EReal) = (v' k : EReal) * (W' k : EReal) := fun k => EReal.coe_mul _ _
    have a2 : ∀ r, (((∑ k, v' k * A' r k) * B' r : ℝ) : EReal) = (∑ k, (v' k : EReal) * (A' r k : EReal)) * (B' r : EReal) :=
      fun r => by
        rw [EReal.coe_mul, coe_sum]
        simp only [EReal.coe_mul]
    simp only [a1, a2]
  rw [e1, key, ← e2, add_right_comm]

/-- The folded layer's output is real when everything that enters it is. -/
theorem isReal_foldedOut {κ ρ : Type*} [Fintype κ] [Fintype ρ] (v W : κ → EReal) (b : EReal) (A : ρ → κ → EReal) (B : ρ → EReal)
    (hv : ∀ k, IsReal (v k)) (hW : ∀ k, IsReal (W k)) (hb : IsReal b) (hA : ∀ r k, IsReal (A r k)) (hB : ∀ r, IsReal (B r)) :
    IsReal (foldedOut v W b A B) :=
  (isReal_sum _ _ fun k _ => (hv k).mul ((hW k).add (isReal_sum _ _ fun r _ => (hB r).mul (hA r k)))).add hb

/-- A sum over N positions of a summand that vanishes outside the g-th group of K consecutive positions is the sum
    over that group. -/
theorem sum_group {N K : ℕ} (hK : 0 < K) (g : ℕ) (hg : K * g + K ≤ N) (φ : Fin N → EReal) :
    (∑ l : Fin N, if l.val / K = g then φ l else 0)
      = ∑ k : Fin K, φ ⟨K * g + k.val, by have := k.isLt; omega⟩ := by
  rw [← Finset.sum_filter]
  symm
  refine Finset.sum_bij (fun (k : Fin K) _ => (⟨K * g + k.val, by have := k.isLt; omega⟩ : Fin N)) ?_ ?_ ?_ ?_
  · intro k _
    simp only [Finset.mem_filter, Finset.mem_univ, true_and]
    rw [Nat.mul_add_div hK, Nat.div_eq_of_lt k.isLt, Nat.add_zero]
  · intro k₁ _ k₂ _ h
    have := congrArg Fin.val h
    simp only at this
    exact Fin.ext (by omega)
  · intro l hl
    simp only [Finset.mem_filter, Finset.mem_univ, true_and] at hl
    refine ⟨⟨l.val % K, Nat.mod_lt _ hK⟩, Finset.mem_univ _, Fin.ext ?_⟩
    simp only
    rw [← hl]
    exact Nat.div_add_mod l.val K
  · intro k _
    rfl

end Cert.LibLoraLaw

end
-- ==== Proof.Law.lean ====
/-
  The algebra behind the two groupings of the row losses, on the extended reals.

  A row of real logits and real labels has a real loss: the shift is a real number (the row is not empty), so every
  shifted exponential is a positive real, their sum is a positive real, each quotient plus ε is a positive real, its
  logarithm is a real, and the product with a real label is a real.

  When every row loss is real, negation passes through finite sums, so summing negated losses tile by tile and adding
  up the tiles (128 tiles of 4096 rows, the running total restarted at tile 64) gives the negated sum over all 524288
  rows; the two groupings are the same extended real divided by the same number of rows.
-/
import proofs.«132585_j30648886624644_2_alg».proof.Proof.Spec
import proofs.«132585_j30648886624644_2_alg».proof.Proof.LibLoraLaw

noncomputable section

open scoped BigOperators

namespace Cert.SoftNll

open Idealize.ShloMosaic
open Cert.LibLoraLaw

/-! ### The constants -/

/-- The starting value of the shift is −∞. -/
theorem negInf_eq : negInf = ⊥ := by
  simp [negInf, Ideal.ofBits, Ideal.ieee]

/-- ε is a nonnegative real number: the pattern is the normal number 14411519 · 2^(−57). -/
theorem eps_real : ∃ e : ℝ, 0 ≤ e ∧ eps = (e : EReal) := by
  refine ⟨(((2 ^ 23 + 6022911 : ℕ) : ℝ) * (2 : ℝ) ^ (-57 : ℤ)), by positivity, ?_⟩
  simp [eps, Ideal.ofBits, Ideal.ieee, -EReal.coe_mul]

/-! ### A real row has a real loss -/

/-- The shift of a nonempty real row is a real number: it is at least the first entry and below +∞. -/
theorem rowMax_real {b : ℕ} (hb : 0 < b) (X : Fin b → ℝ) :
    ∃ M : ℝ, rowMax (fun c => (X c : EReal)) = (M : EReal) := by
  unfold rowMax
  rw [negInf_eq, max_eq_right bot_le]
  have hbot : (⊥ : EReal) < (Finset.univ : Finset (Fin b)).fold max ⊥ (fun c => (X c : EReal)) := by
    have hle : ((X ⟨0, hb⟩ : ℝ) : EReal) ≤ (Finset.univ : Finset (Fin b)).fold max ⊥ (fun c => (X c : EReal)) :=
      (Finset.le_fold_max _).mpr (Or.inr ⟨⟨0, hb⟩, Finset.mem_univ _, le_rfl⟩)
    exact lt_of_lt_of_le (EReal.bot_lt_coe _) hle
  have htop : (Finset.univ : Finset (Fin b)).fold max ⊥ (fun c => (X c : EReal)) < ⊤ :=
    (Finset.fold_max_lt _).mpr ⟨bot_lt_top, fun c _ => EReal.coe_lt_top _⟩
  exact ⟨_, (EReal.coe_toReal htop.ne hbot.ne').symm⟩

theorem rowLoss_isReal {b : ℕ} (hb : 0 < b) (x l : Fin b → EReal)
    (hx : ∀ c, ∃ r : ℝ, x c = (r : EReal)) (hl : ∀ c, ∃ r : ℝ, l c = (r : EReal)) :
    ∃ r : ℝ, rowLoss x l = (r : EReal) := by
  obtain ⟨X, rfl⟩ := exists_real_family x hx
  obtain ⟨L, rfl⟩ := exists_real_family l hl
  obtain ⟨M, hM⟩ := rowMax_real hb X
  obtain ⟨e, he0, he⟩ := eps_real
  -- each shifted exponential is the real exp (X c − M)
  have hexp : ∀ c, rowExp (fun c => (X c : EReal)) c = ((Real.exp (X c - M) : ℝ) : EReal) := by
    intro c
    unfold rowExp
    rw [hM, ← EReal.coe_sub, Ideal.exp_coe]
  -- their sum is a positive real
  have hsum : (∑ k, rowExp (fun c => (X c : EReal)) k) = ((∑ k, Real.exp (X k - M) : ℝ) : EReal) := by
    rw [coe_sum]
    exact Finset.sum_congr rfl fun k _ => hexp k
  have hpos : 0 < ∑ k, Real.exp (X k - M) :=
    Finset.sum_pos (fun k _ => Real.exp_pos _) ⟨⟨0, hb⟩, Finset.mem_univ _⟩
  show IsReal (rowLoss _ _)
  unfold rowLoss
  refine isReal_sum _ _ fun c _ => ?_
  unfold rowTerm
  rw [hsum, hexp, he]
  -- the quotient is the real quotient
  have hdiv : Ideal.div ((Real.exp (X c - M) : ℝ) : EReal) ((∑ k, Real.exp (X k - M) : ℝ) : EReal)
      = ((Real.exp (X c - M) / ∑ k, Real.exp (X k - M) : ℝ) : EReal) := by
    unfold Ideal.div
    rw [if_neg (by exact_mod_cast hpos.ne'), ← EReal.coe_inv, ← EReal.coe_mul, div_eq_mul_inv]
  have hq : 0 < Real.exp (X c - M) / ∑ k, Real.exp (X k - M) + e :=
    add_pos_of_pos_of_nonneg (div_pos (Real.exp_pos _) hpos) he0
  rw [hdiv, ← EReal.coe_add, Ideal.log_coe, if_neg (not_le.mpr hq), ← EReal.coe_mul]
  exact ⟨_, rfl⟩

/-! ### The running total -/

theorem acc_succ (f : ℕ → EReal) (n : ℕ) :
    acc f (n + 1) = if (n + 1) % 64 = 0 then 0 + f (n + 1) else acc f n + f (n + 1) := by
  rw [acc]

/-- Inside the k-th block of 64 tiles the running total is the sum of the block's tiles so far. -/
theorem acc_block (f : ℕ → EReal) (k : ℕ) :
    ∀ i, i < 64 → acc f (64 * k + i) = ∑ j ∈ Finset.range (i + 1), f (64 * k + j)
  | 0, _ => by
    rw [Finset.sum_range_one, Nat.add_zero]
    cases k with
    | zero => rw [Nat.mul_zero, acc, zero_add]
    | succ k =>
      have e : 64 * (k + 1) = (64 * k + 63) + 1 := by ring
      rw [e, acc_succ, if_pos (by omega), zero_add]
  | i + 1, h => by
    have ih := acc_block f k i (by omega)
    have e : 64 * k + (i + 1) = (64 * k + i) + 1 := by ring
    rw [e, acc_succ, if_neg (by omega), ih, Finset.sum_range_succ _ (i + 1), e]

/-- The first running total: tiles 0..63. -/
theorem acc_63 (f : ℕ → EReal) : acc f 63 = ∑ j ∈ Finset.range 64, f j := by
  have h := acc_block f 0 63 (by norm_num)
  simpa using h

/-- The second running total: tiles 64..127. -/
theorem acc_127 (f : ℕ → EReal) : acc f 127 = ∑ j ∈ Finset.range 64, f (64 + j) := by
  have h := acc_block f 1 63 (by norm_num)
  simpa using h

/-! ### Tiles of rows -/

/-- T tiles of K rows are the first K·T rows. -/
theorem sum_tiles (K : ℕ) (g : ℕ → EReal) (T : ℕ) :
    ∑ t ∈ Finset.range T, ∑ r ∈ Finset.range K, g (K * t + r) = ∑ r ∈ Finset.range (K * T), g r := by
  induction T with
  | zero => simp
  | succ T ih => rw [Finset.sum_range_succ, ih, Nat.mul_succ, Finset.sum_range_add]

/-- The four negated row losses of row r, added in the programs' order. -/
def rowNeg (q1 q2 q3 q4 : ℕ → EReal) (r : ℕ) : EReal :=
  (((0 - q1 r) + (0 - q2 r)) + (0 - q3 r)) + (0 - q4 r)

/-- A tile is the sum over its rows of the four negated row losses. -/
theorem tile_eq (q1 q2 q3 q4 : ℕ → EReal) (t : ℕ) :
    tile q1 q2 q3 q4 t = ∑ r ∈ Finset.range 4096, rowNeg q1 q2 q3 q4 (4096 * t + r) := by
  unfold tile headTile rowNeg
  simp only [Finset.sum_add_distrib]

/-- Negation passes through a finite sum of real numbers. -/
theorem sum_neg_real (Q : ℕ → ℝ) (n : ℕ) :
    ∑ r ∈ Finset.range n, (0 - (Q r : EReal)) = headAll (fun r => (Q r : EReal)) n := by
  unfold headAll
  rw [zero_add, ← coe_sum, ← EReal.coe_neg, ← Finset.sum_neg_distrib, coe_sum]
  refine Finset.sum_congr rfl fun r _ => ?_
  rw [zero_sub, EReal.coe_neg]

theorem tiled_eq_whole (q1 q2 q3 q4 : ℕ → EReal)
    (h1 : ∀ r, ∃ a : ℝ, q1 r = (a : EReal)) (h2 : ∀ r, ∃ a : ℝ, q2 r = (a : EReal))
    (h3 : ∀ r, ∃ a : ℝ, q3 r = (a : EReal)) (h4 : ∀ r, ∃ a : ℝ, q4 r = (a : EReal)) :
    tiledValue q1 q2 q3 q4 = wholeValue q1 q2 q3 q4 := by
  obtain ⟨Q1, rfl⟩ := exists_real_family q1 h1
  obtain ⟨Q2, rfl⟩ := exists_real_family q2 h2
  obtain ⟨Q3, rfl⟩ := exists_real_family q3 h3
  obtain ⟨Q4, rfl⟩ := exists_real_family q4 h4
  unfold tiledValue wholeValue
  refine congrArg (fun v => Ideal.div v nRows) ?_
  -- the two running totals are the 128 tiles
  rw [acc_63, acc_127, ← Finset.sum_range_add]
  -- the 128 tiles are the 524288 rows
  have hrows : (4096 * (64 + 64) : ℕ) = 524288 := by norm_num
  rw [Finset.sum_congr rfl fun t _ => tile_eq _ _ _ _ t, sum_tiles, hrows]
  -- split the row sum into the four heads and pull the negations out
  unfold rowNeg
  rw [Finset.sum_add_distrib, Finset.sum_add_distrib, Finset.sum_add_distrib,
    sum_neg_real, sum_neg_real, sum_neg_real, sum_neg_real]

end Cert.SoftNll

end
-- ==== Proof.RowsReal.lean ====
/-
  Real arrays have real row losses.

  A row of an array of real numbers is a row of real numbers (past the array's end it is the zero row), and so are
  its column ranges; by the algebra of a real row, every row loss of a head over real logits and real labels is a
  real number.
-/
import proofs.«132585_j30648886624644_2_alg».proof.Proof.Law

noncomputable section

namespace Cert.SoftNll

open Idealize.ShloMosaic

/-- Every entry of every row of a real array is real. -/
theorem rowN_isReal {n b : ℕ} (x : (⟨2, ![n, b]⟩ : Shape).Idx → EReal) (hx : ∀ i, ∃ r : ℝ, x i = (r : EReal))
    (r : ℕ) (c : Fin b) : ∃ a : ℝ, rowN x r c = (a : EReal) := by
  unfold rowN
  split
  · exact hx _
  · exact ⟨0, rfl⟩

/-- Every row loss of a head over a real logits array and a real label array is real (the head has a column). -/
theorem headRow_isReal {n w B : ℕ} (hw : 0 < w) (x : (⟨2, ![n, w]⟩ : Shape).Idx → EReal)
    (L : (⟨2, ![n, B]⟩ : Shape).Idx → EReal) (off : ℕ) (h : off + w ≤ B)
    (hx : ∀ i, ∃ r : ℝ, x i = (r : EReal)) (hL : ∀ i, ∃ r : ℝ, L i = (r : EReal)) (r : ℕ) :
    ∃ a : ℝ, headRow x L off h r = (a : EReal) :=
  rowLoss_isReal hw _ _ (fun c => rowN_isReal x hx r c)
    (fun c => rowN_isReal L hL r ⟨off + c.val, by have := c.isLt; omega⟩)

end Cert.SoftNll

end
-- ==== Proof.LibRealEntry.lean ====
/-
  Finiteness of an extended real, as the comparison a precondition prints.

  On the extended reals |a| = max a (−a) is +∞ at both infinities, so the ordered comparison |a| < +∞ — against the
  binary32 pattern of +∞ — holds exactly of the real numbers.
-/
import Idealize.ShloMosaic.PureOps.Ideal

noncomputable section

namespace Cert.LibRealEntry

open Idealize.ShloMosaic

/-- An extended real whose absolute value compares below the pattern of +∞ is a real number. -/
theorem real_of_abs_lt (a : EReal)
    (h : Ideal.cmp .olt (max a (-a)) (Ideal.ofBits .f32 0x7F800000#32) = 1#1) : ∃ r : ℝ, a = (r : EReal) := by
  have hinf : Ideal.ofBits .f32 0x7F800000#32 = ⊤ := by simp [Ideal.ofBits, Ideal.ieee]
  rw [hinf] at h
  induction a using EReal.rec with
  | bot => simp [Ideal.cmp] at h
  | coe r => exact ⟨r, rfl⟩
  | top => simp [Ideal.cmp] at h

end Cert.LibRealEntry

end
-- ==== Proof.Finite.lean ====
/-
  The precondition, read back.

  The predicate takes five arrays of extended reals.  Of each it forms, entry by entry, the comparison |a| < +∞
  (the absolute value |a| = max a (−a) against the binary32 pattern of +∞), takes the conjunction of the comparisons
  over all entries of the array, and finally the conjunction of the five results.  A conjunction that is 1 has only
  1s under it, and |a| < +∞ holds exactly of the real numbers: so if the predicate is 1, every entry of every
  argument is a real number.
-/
import proofs.«132585_j30648886624644_2_alg».proof.Pre_finite_inputs
import proofs.«132585_j30648886624644_2_alg».proof.Proof.LibRealEntry
import Idealize.ShloMosaic.Lib.ReduceAll
import Idealize.ShloMosaic.Lib.ValueIdx

noncomputable section

namespace Cert.SoftNll

open Idealize.ShloMosaic

/-- The shape of a single word has one index. -/
instance subsingleton_scalar_idx : Subsingleton Cert.Pre_finite_inputs.S_.Idx :=
  ⟨fun a b => funext fun d => d.elim0⟩

/-- One argument: if the conjunction over all entries of the comparisons |a i| < +∞ is 1, every entry is real. -/
theorem real_of_all {s u : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < u.numel) (init : IVec u 1)
    (j : Cert.Pre_finite_inputs.S_.Idx)
    (e : Host.reduce IntOp.andi
        (cmpf .olt (Host.absf a)
          (broadcastInDim s ![] hb (constant (F := Ideal) Cert.Pre_finite_inputs.S_ .f32 0x7F800000#32)))
        init hr hu j = 1#1) :
    ∀ i, ∃ r : ℝ, a i = (r : EReal) := by
  intro i
  have hi := Host.reduce_andi_all _ init hr hu j e i
  exact Cert.LibRealEntry.real_of_abs_lt (a i) hi

open Cert.Pre_finite_inputs in
/-- The precondition decoded: the predicate being 1 makes every entry of the five arguments a real number. -/
theorem real_of_pre [Cert.Pre_finite_inputs.Facts]
    (a0 : FVec Ideal Cert.Pre_finite_inputs.S524288x8 .f32) (a1 a2 : FVec Ideal Cert.Pre_finite_inputs.S524288x6 .f32)
    (a3 : FVec Ideal Cert.Pre_finite_inputs.S524288x9 .f32) (a4 : FVec Ideal Cert.Pre_finite_inputs.S524288x29 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h ValueIdx.ix0
  dsimp only [Cert.Pre_finite_inputs.fn, Cert.Pre_finite_inputs.fn_part1, andi] at e
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  exact ⟨real_of_all a0 _ _ _ _ _ e0, real_of_all a1 _ _ _ _ _ e1, real_of_all a2 _ _ _ _ _ e2,
    real_of_all a3 _ _ _ _ _ e3, real_of_all a4 _ _ _ _ _ e4⟩

end Cert.SoftNll

end
-- ==== Proof.lean ====
/-
  Four softmax cross-entropy heads, summed over 524288 rows and divided by the number of rows: the tiled kernel
  against the whole-array reference, on the extended reals.

  Row r of head h contributes its row loss  q_h(r) = Σ_c log (softmax (x_h(r))_c + ε) · label_h(r)_c .  The reference
  forms, per head, −Σ_r q_h(r), adds the four heads and divides by 524288.  The kernel cuts the rows into 128 tiles of
  4096: at grid point t it computes, head by head, Σ_{r in tile t} (0 − q_h(r)), adds the four heads, and adds the
  result to a running total kept in the output block — a total that restarts at points 0 and 64, so that block 0 ends
  at the sum over tiles 0–63 and block 1 at the sum over tiles 64–127; the host lines after the region add the two
  blocks' lane 0 and divide by 524288.

  The two values are the two groupings of one finite sum.  They agree because, under the precondition, every argument
  entry is a real number, hence every row loss is a real number (the shifted exponentials are positive reals, their sum
  a positive real, the quotient plus ε positive, its logarithm real), and on real numbers negation passes through
  finite sums and sums may be regrouped freely; at an infinity the negation of a sum need not be the sum of the
  negations, which is why finiteness is used.

  The three frames are the generated frame certificates (the reference's is its generated run with the result dropped);
  the idealization rewrote nothing, so its conjunct is trivial.
-/
import proofs.«132585_j30648886624644_2_alg».proof.Defs
import proofs.«132585_j30648886624644_2_alg».proof.Proof.Gen.Kernel
import proofs.«132585_j30648886624644_2_alg».proof.Proof.Gen.Kernel.Skeleton
import proofs.«132585_j30648886624644_2_alg».proof.Proof.Gen.Kernel.Launch
import proofs.«132585_j30648886624644_2_alg».proof.Proof.Gen.Kernel.Points
import proofs.«132585_j30648886624644_2_alg».proof.Proof.Gen.Kernel.Frame
import proofs.«132585_j30648886624644_2_alg».proof.Proof.Gen.KernelIdeal
import proofs.«132585_j30648886624644_2_alg».proof.Proof.Gen.KernelIdeal.Skeleton
import proofs.«132585_j30648886624644_2_alg».proof.Proof.Gen.KernelIdeal.Launch
import proofs.«132585_j30648886624644_2_alg».proof.Proof.Gen.KernelIdeal.Points
import proofs.«132585_j30648886624644_2_alg».proof.Proof.Gen.KernelIdeal.Frame
import proofs.«132585_j30648886624644_2_alg».proof.Proof.Gen.ReferenceIdeal
import proofs.«132585_j30648886624644_2_alg».proof.Proof.Gen.Pre_finite_inputs
import proofs.«132585_j30648886624644_2_alg».proof.Proof.Gen.ReferenceIdeal.Run
import proofs.«132585_j30648886624644_2_alg».proof.Proof.Gen.ReferenceIdeal.Read
import proofs.«132585_j30648886624644_2_alg».proof.Proof.KFinal
import proofs.«132585_j30648886624644_2_alg».proof.Proof.RefRead
import proofs.«132585_j30648886624644_2_alg».proof.Proof.RowsReal
import proofs.«132585_j30648886624644_2_alg».proof.Proof.Finite
import Idealize.ShloMosaic.Adequacy
import Idealize.ShloMosaic.Init

noncomputable section

namespace Cert.Proof

open Idealize.ShloMosaic Idealize.SL.Sem

/-- The word-level kernel's frame: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference's frame: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel ends at the tiled grouping of the row losses of its arguments, the reference at the whole-array
    grouping of the row losses of arguments that agree; the precondition makes every row loss real, and on real
    row losses the two groupings are one number. -/
theorem algebraic : Cert.algebraic_KernelIdeal_ReferenceIdeal := by
  intro m ρ m' ρ' hpre hagree
  refine ⟨fun c => (fun _ => Cert.SoftNll.tiledValue (Cert.SoftNll.K.q1 m c) (Cert.SoftNll.K.q2 m c)
    (Cert.SoftNll.K.q3 m c) (Cert.SoftNll.K.q4 m c)), Cert.SoftNll.K.run m ρ, ?_⟩
  refine (θ_run Cert.ReferenceIdeal.defs _ _).mono (fun _ h c => ⟨(h c).1.trans ?_, (h c).2⟩)
    (Cert.ReferenceIdeal.Value.run (F := Ideal) m' ρ')
  obtain ⟨ha0, ha1, ha2, ha3, ha4⟩ := hagree c
  obtain ⟨r0, r1, r2, r3, r4⟩ := Cert.SoftNll.real_of_pre _ _ _ _ _ (hpre c)
  rw [Cert.ReferenceIdeal.Read.val_main_v75_eq, ha0, ha1, ha2, ha3, ha4]
  funext i
  rw [Cert.SoftNll.ref_value]
  exact (Cert.SoftNll.tiled_eq_whole _ _ _ _
    (Cert.SoftNll.headRow_isReal (by norm_num) _ _ 0 _ r0 r4)
    (Cert.SoftNll.headRow_isReal (by norm_num) _ _ 8 _ r1 r4)
    (Cert.SoftNll.headRow_isReal (by norm_num) _ _ 14 _ r2 r4)
    (Cert.SoftNll.headRow_isReal (by norm_num) _ _ 20 _ r3 r4)).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
